-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S2x5000x128 : Shape := ⟨3, ![2, 5000, 128]⟩
abbrev S200x10000 : Shape := ⟨2, ![200, 10000]⟩
abbrev S2x200x128 : Shape := ⟨3, ![2, 200, 128]⟩
abbrev S200x128 : Shape := ⟨2, ![200, 128]⟩
abbrev S1x200x128 : Shape := ⟨3, ![1, 200, 128]⟩

abbrev nBuf : Space → Nat
  | .hbm => 6
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S2x5000x128, .f32⟩
  | .hbm, ⟨5, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S128x128, .f32⟩
  | .local _ .vmem, ⟨7, _⟩ => ⟨S2x200x128, .f32⟩
  | .local _ .vmem, ⟨8, _⟩ => ⟨S2x200x128, .f32⟩
  | .local _ .vmem, ⟨9, _⟩ => ⟨S10000x128, .f32⟩
  | .local _ .vmem, ⟨10, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c200_i32 : BitVec 32 := 200#32
  let v4 : BitVec 32 := Scalar.muli arg0 c200_i32
  let v9 : Index := Scalar.indexCast v4
  let c0_5 : Index := 0#32
  ![v9.toNat, 0]
def k0_off2 (i : grid0.Coords) : Fin 2 → Nat :=
  let c5000_i32 : BitVec 32 := 5000#32
  let arg0 : BitVec 32 := BitVec.ofNat 32 (i 0).val
  let c200_i32_2 : BitVec 32 := 200#32
  let v5 : BitVec 32 := Scalar.muli arg0 c200_i32_2
  let v6 : BitVec 32 := Scalar.addi c5000_i32 v5
  let v19 : Index := Scalar.indexCast v6
  let c0_13 : Index := 0#32
  ![v19.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S2x5000x128_S10000x128 : S2x5000x128.ShapeCasts S10000x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S200x10000_S200x10000_0_0 : ∀ a, (![0, 0] : Fin 2 → Nat) a + S200x10000.size a ≤ S200x10000.size a
  h_S200x10000 : 0 < S200x10000.numel
  h_S200x128 : 0 < S200x128.numel
  inb_S2x200x128_S1x200x128_0_0_0 : ∀ a, (![0, 0, 0] : Fin 3 → Nat) a + S1x200x128.size a ≤ S2x200x128.size a
  h_S1x200x128 : 0 < S1x200x128.numel
  shapeCasts_S1x200x128_S200x128 : S1x200x128.ShapeCasts S200x128
  shapeCasts_S200x128_S1x200x128 : S200x128.ShapeCasts S1x200x128
  inb_S2x200x128_S1x200x128_1_0_0 : ∀ a, (![1, 0, 0] : Fin 3 → Nat) a + S1x200x128.size a ≤ S2x200x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  k0_off1_inb : ∀ i : grid0.Coords, ∀ a, (k0_off1 i) a + S200x128.size a ≤ S10000x128.size a
  k0_off2_inb : ∀ i : grid0.Coords, ∀ a, (k0_off2 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x200x128.size a ≤ S2x5000x128.size a
  hwx0_5 : ∀ i : grid0.Coords, EltTy.bits .f32 = 32 ∨ (Rect.block (s := S2x5000x128) S2x200x128.size (cc0_transform_5 i) (hinb0_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S2x200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x10000, .i32⟩
  | .hbm, ⟨6, _⟩ => ⟨S10000x10000, .i32⟩
  | .hbm, ⟨7, _⟩ => ⟨S_, .i32⟩
  | .hbm, ⟨8, _⟩ => ⟨S10000x10000, .i32⟩
  | .hbm, ⟨9, _⟩ => ⟨S10000x10000, .i32⟩
  | .hbm, ⟨10, _⟩ => ⟨S10000x10000, .i1⟩
  | .hbm, ⟨11, _⟩ => ⟨S10000x10000, .f32⟩
  | .hbm, ⟨12, _⟩ => ⟨S10000x10000, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S_S10000x10000 : S_.BroadcastsInDim S10000x10000 (![] : Fin 0 → Fin S10000x10000.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelBody.lean ====
/-
  The kernel body, run once per case of its one conditional.

  At the grid's first point the body fills its two scratch arrays — the support s = x · W, and z = s + x · Wself —
  from the resident blocks of x, W and Wself; at every point it then reads s whole and two row bands of z, multiplies
  the point's two row bands of adj against s, adds the bands of z, clamps at zero and stores the two results as the two
  planes of its output block. So there are two cases: the first point (scratch written, then read back) and a later
  point (scratch as an earlier point left it, read only). In each case the run is made once, at symbolic operands, and
  the list of stores each written buffer ends with is what the run finds.
-/
import proofs.«112803_g56341380989462_cont_9to1_m_248_14_alg».proof.Proof.Gen.Kernel.Skeleton
import proofs.«112803_g56341380989462_cont_9to1_m_248_14_alg».proof.Proof.Gen.Kernel.Launch
import proofs.«112803_g56341380989462_cont_9to1_m_248_14_alg».proof.Proof.Gen.Kernel.Points
import Idealize.ShloMosaic.Lib.Tactic
import Idealize.ShloMosaic.Lib.Pipeline.Kit
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, "this is the grid's first point", as the body computes it from the coordinate. -/
abbrev first (i : grid0.Coords) : Prop :=
  Scalar.cmpi .ne (Scalar.extui (Scalar.cmpi .eq (BitVec.ofNat 32 (i 0).val) 0#32) : BitVec 32) 0#32 = 1#1

set_option maxHeartbeats 1000000 in
/-- THE FIRST POINT. From the five input blocks at their contents and the output block and both scratch arrays at
    anything, the body runs to its end with the inputs as they were and each written buffer at its stores: two stores
    into the output block (its two planes), one whole store into each scratch array. -/
noncomputable def runFirst (c : Dev nD) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S2x200x128 .f32) (harg6 : arg6.IsWhole)
    (arg7 : Memref sig .tc .vmem S10000x128 .f32) (harg7 : arg7.IsWhole) (arg8 : Memref sig .tc .vmem S10000x128 .f32) (harg8 : arg8.IsWhole)
    (hc : first i)
    (x1 x2 : Vec F S200x10000 .f32) (x3 : Vec F S10000x128 .f32) (x4 x5 : Vec F S128x128 .f32) :
    Σ' (L6 : List (View.Piece (Elt F) S2x200x128 .f32)) (L7 : List (View.Piece (Elt F) S10000x128 .f32)), { L8 : List (View.Piece (Elt F) S10000x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E (cc0__k i arg1 harg1 arg2 harg2 arg3 harg3 arg4 harg4 arg5 harg5 arg6 harg6 arg7 harg7 arg8 harg8) K } := by
  refine ⟨?_, ?_, ?_, fun E K => ?run⟩
  case run =>
    simp only [cc0__k_eq_skeleton]; unfold cc0__k_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := Memref.IsWhole.eq_unread harg1 hf1; obtain rfl := Memref.IsWhole.eq_unread harg2 hf2
    obtain rfl := Memref.IsWhole.eq_unread harg3 hf3; obtain rfl := Memref.IsWhole.eq_unread harg4 hf4
    obtain rfl := Memref.IsWhole.eq_unread harg5 hf5
    sl_exec (disch := exact hc)
    sl_step
    iapply Hk
    isplitl [H1]
    · iexists _; isplitr; · ipureintro; exact Memref.IsWhole.read_unread harg1 _
      iexact H1
    isplitl [H2]
    · iexists _; isplitr; · ipureintro; exact Memref.IsWhole.read_unread harg2 _
      iexact H2
    isplitl [H3]
    · iexists _; isplitr; · ipureintro; exact Memref.IsWhole.read_unread harg3 _
      iexact H3
    isplitl [H4]
    · iexists _; isplitr; · ipureintro; exact Memref.IsWhole.read_unread harg4 _
      iexact H4
    isplitl [H5]
    · iexists _; isplitr; · ipureintro; exact Memref.IsWhole.read_unread harg5 _
      iexact H5
    isplitl [H6]; · iexists _; iexact H6
    isplitl [H7]; · iexists _; iexact H7
    iexists _; iexact H8

set_option maxHeartbeats 1000000 in
/-- A LATER POINT. From the two adj blocks at their contents, both scratch arrays at what an earlier point left and the
    output block at anything, the body runs to its end with the blocks and the scratch as they were and the output
    block at its two stores. The other three input blocks are not touched and stay with the caller. -/
noncomputable def runLater (c : Dev nD) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S2x200x128 .f32) (harg6 : arg6.IsWhole)
    (arg7 : Memref sig .tc .vmem S10000x128 .f32) (harg7 : arg7.IsWhole) (arg8 : Memref sig .tc .vmem S10000x128 .f32) (harg8 : arg8.IsWhole)
    (hc : ¬first i)
    (x1 x2 : Vec F S200x10000 .f32) (s7 s8 : Vec F S10000x128 .f32) :
    { L6 : List (View.Piece (Elt F) S2x200x128 .f32) //
      ∀ (E : Set ℕ) (K : PUnit → sProp 𝕄),
        iprop(owns (c : Thread nD τ) arg1 fullShare x1 ∗ owns (c : Thread nD τ) arg2 fullShare x2
            ∗ (∃ d, owns (c : Thread nD τ) arg6 fullShare d) ∗ owns (c : Thread nD τ) arg7 fullShare s7 ∗ owns (c : Thread nD τ) arg8 fullShare s8
            ∗ (iprop(owns (c : Thread nD τ) arg1 fullShare x1 ∗ owns (c : Thread nD τ) arg2 fullShare x2
                ∗ (∃ f, arg6.view.loc (c : Thread nD τ) ↦[arg6.view.set]{fullShare} arg6.view.writes (Elt F) f L6)
                ∗ owns (c : Thread nD τ) arg7 fullShare s7 ∗ owns (c : Thread nD τ) arg8 fullShare s8) -∗ K ⟨⟩))
          ⊢ wp frame (wpE (defs₀ (F := F)) Variants.none c none) E (cc0__k i arg1 harg1 arg2 harg2 arg3 harg3 arg4 harg4 arg5 harg5 arg6 harg6 arg7 harg7 arg8 harg8) K } := by
  refine ⟨?_, fun E K => ?run⟩
  case run =>
    simp only [cc0__k_eq_skeleton]; unfold cc0__k_skel
    unfold owns
    iintro ⟨⟨%f1, %hf1, H1⟩, ⟨%f2, %hf2, H2⟩, ⟨%d6, %f6, -, H6⟩, ⟨%f7, %hf7, H7⟩, ⟨%f8, %hf8, H8⟩, Hk⟩
    obtain rfl := Memref.IsWhole.eq_unread harg1 hf1; obtain rfl := Memref.IsWhole.eq_unread harg2 hf2
    obtain rfl := Memref.IsWhole.eq_unread harg7 hf7; obtain rfl := Memref.IsWhole.eq_unread harg8 hf8
    sl_exec (disch := exact hc)
    sl_step
    iapply Hk
    isplitl [H1]
    · iexists _; isplitr; · ipureintro; exact Memref.IsWhole.read_unread harg1 _
      iexact H1
    isplitl [H2]
    · iexists _; isplitr; · ipureintro; exact Memref.IsWhole.read_unread harg2 _
      iexact H2
    isplitl [H6]; · iexists _; iexact H6
    isplitl [H7]
    · iexists _; isplitr; · ipureintro; exact Memref.IsWhole.read_unread harg7 _
      iexact H7
    iexists _; isplitr; · ipureintro; exact Memref.IsWhole.read_unread harg8 _
    iexact H8

end Cert.Kernel.Hand

end
-- ==== Proof.KernelData.lean ====
/-
  What the pipeline's buffers hold point by point, and the body obligation.

  The grid has 25 points. Point t stages rows [200 t, 200 t + 200) of adj in one window and rows
  [5000 + 200 t, 5000 + 200 t + 200) in another (both windows read the one array adj), keeps x, W and Wself resident,
  and writes back a [2, 200, 128] block: plane h holds rows [5000 h + 200 t, +200) of the result.  The two scratch
  arrays are written at the first point only — s = x · W and z = s + x · Wself — and read at every point, so the
  invariant between points carries them at exactly what the first point left.
-/
import proofs.«112803_g56341380989462_cont_9to1_m_248_14_alg».proof.Proof.KernelBody
import Idealize.ShloMosaic.Lib.Ring
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and the windows' blocks -/

/-- Core `c`'s buffers when the region is entered: the launch contents (no host operation runs before the region). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first point is the one whose coordinate is zero — decided over the grid. -/
theorem hfirst : ∀ t : Fin cfg0.N, first (grid0.coords t) ↔ t.val = 0 :=
  (by decide +kernel : ∀ t : Fin grid0.N, first (grid0.coords t) ↔ t.val = 0)

/-- The first point. -/
abbrev t₀ : Fin cfg0.N := ⟨0, by decide⟩

/-- No window is ever idle: every point loads every input and stores the output block. -/
theorem live0 : ∀ (w : Fin cfg0.W) (i : grid0.Coords), cfg0.idle w i = false := by decide +kernel

/-! ## The staging memrefs at a point, and the scratch -/

abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x200x128 .f32 := win0_5.stage (cfg0.slots t 5)
abbrev hs5 (t : Fin cfg0.N) : (ms5 t).IsWhole := hstage0_5 ((cfg0.slots t 5).cast nbuf0_5)
/-- The scratch holding the support s, -/
abbrev scS : Memref sig .tc .vmem S10000x128 .f32 := Memref.whole cc0_scratch0
/-- and the scratch holding z. -/
abbrev scZ : Memref sig .tc .vmem S10000x128 .f32 := Memref.whole cc0_scratch1
/-- Views through which contents are stated (by covering stores the choice does not matter). -/
abbrev VO : View sig .tc .vmem S2x200x128 .f32 := (Memref.whole cc0_stg5_0 : Memref sig .tc .vmem S2x200x128 .f32).view
abbrev VS : View sig .tc .vmem S10000x128 .f32 := (scS : Memref sig .tc .vmem S10000x128 .f32).view
abbrev VZ : View sig .tc .vmem S10000x128 .f32 := (scZ : Memref sig .tc .vmem S10000x128 .f32).view

/-! ## What the first point leaves -/

/-- The first point's run at the first point's memrefs and blocks. -/
abbrev firstRun (c : Dev nD) :=
  runFirst (F := F) c (grid0.coords t₀) (ms0 t₀) (hs0 t₀) (ms1 t₀) (hs1 t₀) (ms2 t₀) (hs2 t₀) (ms3 t₀) (hs3 t₀) (ms4 t₀) (hs4 t₀) (ms5 t₀) (hs5 t₀)
    scS (Memref.isWhole_whole _) scZ (Memref.isWhole_whole _) ((hfirst t₀).mpr rfl)
    (iblk m c 0 t₀) (iblk m c 1 t₀) (iblk m c 2 t₀) (iblk m c 3 t₀) (iblk m c 4 t₀)

/-- Its two stores tile the output block; -/
theorem coverFirstO (c : Dev nD) (y : S2x200x128.Idx) : ∃ pc ∈ (firstRun m c).1, y ∈ pc.1.set :=
  View.cover_of_tiledL (firstRun m c).1 S1x200x128.size (by sl_kernel_rfl) y
/-- its one store fills the support's scratch; -/
theorem coverFirstS (c : Dev nD) (y : S10000x128.Idx) : ∃ pc ∈ (firstRun m c).2.1, y ∈ pc.1.set :=
  View.cover_of_tiledL (firstRun m c).2.1 S10000x128.size (by sl_kernel_rfl) y
/-- and its one store fills z's. -/
theorem coverFirstZ (c : Dev nD) (y : S10000x128.Idx) : ∃ pc ∈ (firstRun m c).2.2.1, y ∈ pc.1.set :=
  View.cover_of_tiledL (firstRun m c).2.2.1 S10000x128.size (by sl_kernel_rfl) y

/-- The support's scratch after the first point, -/
def sKept (c : Dev nD) : Vec F S10000x128 .f32 := VS.read (Elt F) (VS.writes (Elt F) VS.junk (firstRun m c).2.1)
/-- z's scratch after the first point, -/
def zKept (c : Dev nD) : Vec F S10000x128 .f32 := VZ.read (Elt F) (VZ.writes (Elt F) VZ.junk (firstRun m c).2.2.1)
/-- and the output block after the first point. -/
def outFirst (c : Dev nD) : Vec F S2x200x128 .f32 := VO.read (Elt F) (VO.writes (Elt F) VO.junk (firstRun m c).1)

/-! ## What a later point leaves -/

/-- A later point's run at that point's memrefs and adj blocks, the scratch at what the first point left. -/
abbrev laterRun (c : Dev nD) (t : Fin cfg0.N) (ht : t.val ≠ 0) :=
  runLater (F := F) c (grid0.coords t) (ms0 t) (hs0 t) (ms1 t) (hs1 t) (ms2 t) (hs2 t) (ms3 t) (hs3 t) (ms4 t) (hs4 t) (ms5 t) (hs5 t)
    scS (Memref.isWhole_whole _) scZ (Memref.isWhole_whole _) (fun h => ht ((hfirst t).mp h))
    (iblk m c 0 t) (iblk m c 1 t) (sKept m c) (zKept m c)

theorem coverLaterO (c : Dev nD) (t : Fin cfg0.N) (ht : t.val ≠ 0) (y : S2x200x128.Idx) : ∃ pc ∈ (laterRun m c t ht).1, y ∈ pc.1.set :=
  View.cover_of_tiledL (laterRun m c t ht).1 S1x200x128.size (by sl_kernel_rfl) y

def outLater (c : Dev nD) (t : Fin cfg0.N) (ht : t.val ≠ 0) : Vec F S2x200x128 .f32 :=
  VO.read (Elt F) (VO.writes (Elt F) VO.junk (laterRun m c t ht).1)

/-- The output block after point `t`. -/
def outAt (c : Dev nD) (t : Fin cfg0.N) : Vec F S2x200x128 .f32 :=
  if ht : t.val = 0 then outFirst m c else outLater m c t ht

theorem outAt_first (c : Dev nD) (t : Fin cfg0.N) (ht : t.val = 0) : outAt m c t = outFirst m c := dif_pos ht
theorem outAt_later (c : Dev nD) (t : Fin cfg0.N) (ht : t.val ≠ 0) : outAt m c t = outLater m c t ht := dif_neg ht

/-! ## The invariant between points -/

/-- Before the first point both scratch arrays hold anything; afterwards they hold what the first point left. -/
def PhiS (c : Dev nD) (n : ℕ) : sProp 𝕄 :=
  if n = 0 then iprop((∃ d, owns (c : Thread nD τ) scS fullShare d) ∗ (∃ d, owns (c : Thread nD τ) scZ fullShare d))
  else iprop(owns (c : Thread nD τ) scS fullShare (sKept m c) ∗ owns (c : Thread nD τ) scZ fullShare (zKept m c))

theorem PhiS_zero (c : Dev nD) (n : ℕ) (h : n = 0) :
    PhiS m c n = iprop((∃ d, owns (c : Thread nD τ) scS fullShare d) ∗ (∃ d, owns (c : Thread nD τ) scZ fullShare d)) := if_pos h
theorem PhiS_pos (c : Dev nD) (n : ℕ) (h : n ≠ 0) :
    PhiS m c n = iprop(owns (c : Thread nD τ) scS fullShare (sKept m c) ∗ owns (c : Thread nD τ) scZ fullShare (zKept m c)) := if_neg h

/-! ## The proof data -/

/-- The arrays at their region-entry contents; after the body every input's buffer still at its block and the output's
    at `outAt`; the invariant `PhiS`; the array adj, read by two windows, held half by each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- Each input's current staging buffer holds its block at every point, fetched there or not: the body leaves an
    input's block in place, and where the pipeline does not refetch, the block index has not moved. -/
theorem before0 (c : Dev nD) (t : Fin cfg0.N) (d) : (dats m 0 c).before 0 t d = iblk m c 0 t :=
  ((dats m 0 c).before_in_eq_fetched 0 rfl (live0 0) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (live0 1) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (live0 2) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (live0 3) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (live0 4) (fun _ _ _ => rfl) (fun t => by rw [after4]; unfold Dat.blockOf iblk; rw [A_eq]; try rfl) t d).trans
    (by unfold Dat.fetched Dat.blockOf iblk; rw [A_eq]; try rfl)

/-! ## The body obligation -/

set_option maxHeartbeats 4000000 in
/-- The body at any point. The inputs' buffers hold their blocks; at the first point the scratch holds anything and the
    run fills it, at a later point the scratch holds what the first point left and the run only reads it; either way
    the output block ends at the two planes the run stores, the inputs as they were. -/
theorem sound_body (c : Dev nD) (t : Fin cfg0.N) :
    iprop((dats m 0 c).Φ t.castSucc ∗ (dats m 0 c).owesAt () t.castSucc
        ∗ (∃ d, owns (c : Thread nD τ) (ms0 t) fullShare ((dats m 0 c).before 0 t d))
        ∗ (∃ d, owns (c : Thread nD τ) (ms1 t) fullShare ((dats m 0 c).before 1 t d))
        ∗ (∃ d, owns (c : Thread nD τ) (ms2 t) fullShare ((dats m 0 c).before 2 t d))
        ∗ (∃ d, owns (c : Thread nD τ) (ms3 t) fullShare ((dats m 0 c).before 3 t d))
        ∗ (∃ d, owns (c : Thread nD τ) (ms4 t) fullShare ((dats m 0 c).before 4 t d))
        ∗ (∃ d, owns (c : Thread nD τ) (ms5 t) fullShare ((dats m 0 c).before 5 t d)))
      ⊢ wp frame (wpE (defs₀ (F := F)) Variants.none c none) Set.univ (bodyAt0 t) (fun _ =>
          iprop((dats m 0 c).Φ t.succ ∗ (dats m 0 c).owesAt () t.succ
            ∗ (dats m 0 c).leavesExact 0 t ∗ (dats m 0 c).leavesExact 1 t ∗ (dats m 0 c).leavesExact 2 t
            ∗ (dats m 0 c).leavesExact 3 t ∗ (dats m 0 c).leavesExact 4 t ∗ (dats m 0 c).leavesExact 5 t)) := by
  have hl : ∀ w, (dats m 0 c).leavesExact w t
      = owns (c : Thread nD τ) ((cfg0.win w).stage (cfg0.slots t w)) fullShare ((dats m 0 c).after w t) := fun w => by
    unfold Dat.leavesExact; rw [live0 w]
  rw [hl 0, hl 1, hl 2, hl 3, hl 4, hl 5, after0, after1, after2, after3, after4, after5]
  simp only [before0, before1, before2, before3, before4]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  unfold bodyAt0
  by_cases hz : t.val = 0
  · have ht : t = t₀ := Fin.ext hz
    subst ht
    rw [PhiS_zero m c _ rfl, outAt_first m c t₀ rfl]
    unfold outFirst sKept zKept
    iintro ⟨⟨HS, HZ⟩, Ho, ⟨%d0, H0⟩, ⟨%d1, H1⟩, ⟨%d2, H2⟩, ⟨%d3, H3⟩, ⟨%d4, H4⟩, ⟨%d5, H5⟩⟩
    iapply ((firstRun m c).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    isplitl [HZ]; · iexact HZ
    iintro ⟨H0, H1, H2, H3, H4, ⟨%e6, H6⟩, ⟨%e7, H7⟩, ⟨%e8, H8⟩⟩
    isplitl [H7 H8]
    · isplitl [H7]
      · unfold owns; iexists _; isplitr
        swap; · iexact H7
        ipureintro; exact View.read_writes_of_cover _ _ _ _ _ (coverFirstS m c)
      · unfold owns; iexists _; isplitr
        swap; · iexact H8
        ipureintro; exact View.read_writes_of_cover _ _ _ _ _ (coverFirstZ m c)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H6
    ipureintro; exact View.read_writes_of_cover _ _ _ _ _ (coverFirstO m c)
  · rw [PhiS_pos m c _ hz, outAt_later m c t hz]
    unfold outLater
    iintro ⟨⟨HS, HZ⟩, Ho, ⟨%d0, H0⟩, ⟨%d1, H1⟩, ⟨%d2, H2⟩, ⟨%d3, H3⟩, ⟨%d4, H4⟩, ⟨%d5, H5⟩⟩
    iapply ((laterRun m c t hz).2 Set.univ _)
    isplitl [H0]; · iexact H0
    isplitl [H1]; · iexact H1
    isplitl [H5]; · iexists _; iexact H5
    isplitl [HS]; · iexact HS
    isplitl [HZ]; · iexact HZ
    iintro ⟨H0, H1, ⟨%e6, H6⟩, HS, HZ⟩
    isplitl [HS HZ]
    · isplitl [HS]; · iexact HS
      iexact HZ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H6
    ipureintro; exact View.read_writes_of_cover _ _ _ _ _ (coverLaterO m c t hz)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.LibSharedArrays.lean ====
/-
  Two facts for a pipeline whose windows may share an array, and for a host operation that touches two buffers.

  When several windows of a pipeline read one array, the arrays are no longer in bijection with the windows, and the
  contents a core's buffers hold after the region — the pipeline's arrays at their final contents, everything else as
  before — can still be read at any array that exactly ONE window stands on: there the choice of window is forced.
  And a set of two distinct buffers held at a valuation is the two points-tos side by side.
-/
import Idealize.ShloMosaic.Lib.Pipeline.FrameSuffix

noncomputable section

namespace Idealize.ShloMosaic.SharedArrays

open Idealize.ShloMosaic Idealize.ShloMosaic.TcCoe
open Idealize.SL Idealize.SL.RA Idealize.SL.BI
open scoped Idealize.SL.BI
open Idealize.SL.BI.BIBase Idealize.SL.Sem

variable {nD : Nat} {τ : Topo} {sig : RefSig} {Val : EltTy → Type}

/-- The buffers after a region, read at the array of a window `w` that is the only window on its array: the final
    contents stated for `w`. (Distinct arrays for ALL windows are not needed: other windows may share theirs.) -/
theorem withArrays_arr_of_unique {gr : Nat} {W : Nat} (win : Fin W → Pipeline.WinSpec sig gr) (c : Dev nD)
    (V : Valuation τ sig Val) (A : (w : Fin W) → Buf Val ((win w).arr.view.loc (c.tc : Thread nD τ))) (w : Fin W)
    (huniq : ∀ w', Pipeline.arrRef win w' = Pipeline.arrRef win w → w' = w) :
    Pipeline.withArrays win c V A (Proc.devRef .tc (Pipeline.arrRef win w)) = A w := by
  unfold Pipeline.withArrays
  have h : ∃ w', Proc.devRef .tc (Pipeline.arrRef win w') = Proc.devRef (τ := τ) .tc (Pipeline.arrRef win w) := ⟨w, rfl⟩
  rw [dif_pos h]
  suffices ∀ (w' : Fin W) (e : Proc.devRef .tc (Pipeline.arrRef win w') = Proc.devRef (τ := τ) .tc (Pipeline.arrRef win w)),
      cast (congrArg (fun b' : DevRef τ sig => b'.ty.Contents Val) e) (A w') = A w from this _ h.choose_spec
  intro w' e
  obtain rfl : w' = w := huniq w' (Proc.devRef_injective _ e)
  rfl

variable {Ix : Type} [DecidableEq Ix] {Name : Type} [DecidableEq Name] {U : Type} [URA U] {Lvl : Type} [Preorder Lvl]

/-- Two distinct buffers held at a valuation are their two points-tos. -/
theorem held_pair (c : Thread nD τ) {a b : DevRef τ sig} (hab : a ≠ b) (X : Valuation τ sig Val) :
    (StableHlo.held c {a, b} X : sProp (MT nD τ sig Ix Val Name U Lvl))
      = iprop((((c.1, a) : Loc nD τ sig) ↦{fullShare} X a) ∗ (((c.1, b) : Loc nD τ sig) ↦{fullShare} X b)) := by
  unfold StableHlo.held
  rw [BI.bigSep_insert (by rw [Finset.mem_singleton]; exact hab), BI.bigSep_singleton]
  rfl

end Idealize.ShloMosaic.SharedArrays

end
-- ==== Proof.KernelRun.lean ====
/-
  The launch: @main as a kernel region followed by one host operation.

  @main calls the pipeline once and then reshapes its [2, 5000, 128] result to [10000, 128].  Two of the pipeline's
  windows read ONE array (adj): at the region's entry that array's full share is split in two halves, one per window,
  and both halves come back unchanged at the exit (an input array is never written).  The other arrays are held whole.
  After the region the reshape reads the pipeline's result array and writes @main's result buffer; nothing else is
  touched.  The run states every argument array as it was at launch and the result as the reshape of the pipeline's
  final result array.
-/
import proofs.«112803_g56341380989462_cont_9to1_m_248_14_alg».proof.Proof.KernelData
import Idealize.ShloMosaic.Lib.Pipeline.Regions
import Idealize.ShloMosaic.Lib.Pipeline.FrameSuffix
import proofs.«112803_g56341380989462_cont_9to1_m_248_14_alg».proof.Proof.LibSharedArrays

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user algebra. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

/-- Core `c`'s buffers at launch, as a valuation. -/
abbrev V₀ (c : Dev nD) : Valuation τ sig (Elt F) := fun b => m ((c : Dev nD), b)

/-! ## The unscoped buffers and the pipeline's arrays, listed -/

omit [FloatOps F] in
/-- The core's unscoped buffers, one by one. -/
theorem unscopedBufs_list (c : Dev nD) (X : (b : Ref sig .tc) → Buf (Elt F) ((c : Thread nD τ).loc b)) :
    (unscopedBufs c X : sProp 𝕄)
      = iprop((((c : Thread nD τ).loc main_arg0) ↦{fullShare} X main_arg0) ∗ (((c : Thread nD τ).loc main_arg1) ↦{fullShare} X main_arg1)
          ∗ (((c : Thread nD τ).loc main_arg2) ↦{fullShare} X main_arg2) ∗ (((c : Thread nD τ).loc main_arg3) ↦{fullShare} X main_arg3)
          ∗ (((c : Thread nD τ).loc main_call0_v0) ↦{fullShare} X main_call0_v0) ∗ (((c : Thread nD τ).loc main_v0) ↦{fullShare} X main_v0)) := by
  unfold unscopedBufs
  exact bigSep_eq_bigSepL_of_eq [main_arg0, main_arg1, main_arg2, main_arg3, main_call0_v0, main_v0] (by decide) (by decide) _

/-- The share each window holds its array at: adj's two halves for the two windows that read it, the full share otherwise. -/
theorem share0 (c : Dev nD) : (dats m 0 c).share 0 = fullShare.left := by
  unfold Dat.share; rw [if_neg (by decide)]; dsimp only [dats]
theorem share1 (c : Dev nD) : (dats m 0 c).share 1 = fullShare.right := by
  unfold Dat.share; rw [if_neg (by decide)]; dsimp only [dats]
theorem share2 (c : Dev nD) : (dats m 0 c).share 2 = fullShare := by
  unfold Dat.share; rw [if_neg (by decide)]; dsimp only [dats]
theorem share3 (c : Dev nD) : (dats m 0 c).share 3 = fullShare := by
  unfold Dat.share; rw [if_neg (by decide)]; dsimp only [dats]
theorem share4 (c : Dev nD) : (dats m 0 c).share 4 = fullShare := by
  unfold Dat.share; rw [if_neg (by decide)]; dsimp only [dats]
theorem share5 (c : Dev nD) : (dats m 0 c).share 5 = fullShare := by
  unfold Dat.share; rw [if_pos (by decide)]

/-- The pipeline's arrays at contents `A`, window by window: adj twice, at the two halves of its share. -/
theorem arrays_list (c : Dev nD) (A : (w : Fin cfg0.W) → Buf (Elt F) ((cfg0.win w).arr.view.loc (c : Thread nD τ))) :
    ((dats m 0 c).arrays A : sProp 𝕄)
      = iprop((((c : Thread nD τ).loc main_arg1) ↦{fullShare.left} A 0) ∗ (((c : Thread nD τ).loc main_arg1) ↦{fullShare.right} A 1)
          ∗ (((c : Thread nD τ).loc main_arg0) ↦{fullShare} A 2) ∗ (((c : Thread nD τ).loc main_arg2) ↦{fullShare} A 3)
          ∗ (((c : Thread nD τ).loc main_arg3) ↦{fullShare} A 4) ∗ (((c : Thread nD τ).loc main_call0_v0) ↦{fullShare} A 5)) := by
  have h : ((dats m 0 c).arrays A : sProp 𝕄)
      = bigSep Finset.univ fun w : Fin cfg0.W => (((c : Thread nD τ).loc (Pipeline.arrRef spec0 w)) ↦{(dats m 0 c).share w} A w : sProp 𝕄) := by
    unfold Dat.arrays
    exact bigSep_congr fun w _ => by rw [(arr_whole0 w).set_eq_univ]
  rw [h, bigSep_W0, share0, share1, share2, share3, share4, share5]

/-! ## The host operation after the region -/

/-- The two buffers the reshape touches. -/
def tailRefs : Finset (DevRef τ sig) := {Proc.devRef .tc main_call0_v0, Proc.devRef .tc main_v0}

omit [FloatOps F] in
theorem held_tailRefs (c : Dev nD) (X : Valuation τ sig (Elt F)) :
    (StableHlo.held (c : Thread nD τ) tailRefs X : sProp 𝕄)
      = iprop(((((c : Dev nD), Proc.devRef .tc main_call0_v0) : Loc nD τ sig) ↦{fullShare} X (Proc.devRef .tc main_call0_v0))
          ∗ ((((c : Dev nD), Proc.devRef .tc main_v0) : Loc nD τ sig) ↦{fullShare} X (Proc.devRef .tc main_v0))) := by
  unfold tailRefs
  exact SharedArrays.held_pair (c : Thread nD τ) (StableHlo.devRef_ne_of_ne (by decide)) X

/-- Only the output window stands on the pipeline's result array. -/
theorem only_out : ∀ w : Fin 6, Pipeline.arrRef spec0 w = main_call0_v0 → w = 5 := by decide

/-- The core's buffers when the region has ended: the pipeline's arrays at their final contents, the rest as launched. -/
def W₁ (c : Dev nD) : Valuation τ sig (Elt F) :=
  Pipeline.withArrays spec0 c (V₀ m c) (fun w => (dats m 0 c).arrAt w cfg0.N)

/-- The pipeline's result array holds its final contents; -/
theorem W₁_out (c : Dev nD) : W₁ m c (Proc.devRef .tc main_call0_v0) = (dats m 0 c).arrAt 5 cfg0.N :=
  SharedArrays.withArrays_arr_of_unique spec0 c (V₀ m c) (fun w => (dats m 0 c).arrAt w cfg0.N) 5 only_out

/-- @main's result buffer still holds what it held at launch. -/
theorem W₁_res (c : Dev nD) : W₁ m c (Proc.devRef .tc main_v0) = V₀ m c (Proc.devRef .tc main_v0) :=
  Pipeline.withArrays_of_ne spec0 c _ _ main_v0 (by decide)

/-- What rides past the reshape: the argument arrays, adj in its two halves. -/
abbrev Inputs (c : Dev nD) : sProp 𝕄 :=
  iprop((((c : Thread nD τ).loc main_arg1) ↦{fullShare.left} (dats m 0 c).arrAt 0 cfg0.N) ∗ (((c : Thread nD τ).loc main_arg1) ↦{fullShare.right} (dats m 0 c).arrAt 1 cfg0.N)
    ∗ (((c : Thread nD τ).loc main_arg0) ↦{fullShare} (dats m 0 c).arrAt 2 cfg0.N) ∗ (((c : Thread nD τ).loc main_arg2) ↦{fullShare} (dats m 0 c).arrAt 3 cfg0.N)
    ∗ (((c : Thread nD τ).loc main_arg3) ↦{fullShare} (dats m 0 c).arrAt 4 cfg0.N))

/-- THE HOST SEGMENT: the reshape over the two buffers it touches. -/
def seg1 : Pipeline.HostSeg (Name := ℕ) (U := UR sig nD τ) (pcfgs (F := F)) defs₀ 𝒱₀ L lv :=
  Pipeline.HostSeg.ofOps _ _ _ _ _ tailRefs hostOps1
    (by intro op hop; simp only [List.mem_cons, List.mem_nil_iff, or_false] at hop; subst hop; exact Finset.Subset.refl _)
    (by intro _ h; (repeat (cases h with | head => rfl | tail _ h => ?_)); exact nomatch h)
    (W₁ m) (fun c => iprop(Inputs m c ∗ R c))

/-! ## The region, and the run -/

/-- The thread state the launch makes: every unscoped buffer at its launch contents, the core owing nothing. -/
abbrev T₀ (c : Dev nD) : sProp 𝕄 := iprop(StableHlo.held (c : Thread nD τ) (Pipeline.ucRefs τ sig) (V₀ m c) ∗ R c)

set_option backward.isDefEq.respectTransparency.types false in
/-- THE REGION: entered from the launch's state — adj's share split between the two windows that read it, the other
    arrays whole, @main's result buffer bypassing —, left with every array at its final contents, the two scratch arrays
    forgotten. The kernel has no semaphore of its own. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := T₀ m c
  post c := iprop(StableHlo.held (c : Thread nD τ) tailRefs (W₁ m c) ∗ Inputs m c ∗ R c)
  X c := iprop(emp)
  Y c := iprop(emp)
  Z c := ((c : Thread nD τ).loc main_v0) ↦{fullShare} V m c main_v0
  hentry c := by
    unfold T₀
    rw [show StableHlo.held (c : Thread nD τ) (Pipeline.ucRefs τ sig) (V₀ m c) = unscopedBufs c (V m c) from (Pipeline.unscopedBufs_held c _).symm,
      unscopedBufs_list, arrays_list]
    iintro ⟨⟨⟨H0, H1, H2, H3, H4, H5⟩, HO⟩, -, -⟩
    ihave H1s := (pointsTo_share (PosShare.mem_left_op_right fullShare)).1 $$ H1
    icases H1s with ⟨H1l, H1r⟩
    imodintro
    isplitl [H0 H1l H1r H2 H3 H4]
    · isplitl [H1l]; · iexact H1l
      isplitl [H1r]; · iexact H1r
      isplitl [H0]; · iexact H0
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact H5
  hin c := by
    rw [show (dats m 0 c).Φ 0 = PhiS m c 0 from rfl, PhiS_zero m c 0 rfl, scopedRest0_eq]
    simp only [scS, scZ, owns_whole]
    iintro ⟨-, -, HS, HZ⟩
    isplitl [HS]; · iexact HS
    iexact HZ
  hout c := by
    rw [Pipeline.ownSems0_none, show (dats m 0 c).Φ (Fin.last cfg0.N) = PhiS m c cfg0.N from rfl,
      PhiS_pos m c _ (by have h : cfg0.N = 25 := N_0; omega), scopedRest0_eq]
    simp only [scS, scZ, owns_whole]
    iintro ⟨HS, HZ⟩
    isplitr; · iempintro
    isplitr; · iempintro
    isplitl [HS]; · iexists _; iexact HS
    iexists _; iexact HZ
  hexit c := by
    rw [arrays_list, held_tailRefs, W₁_out, W₁_res]
    iintro ⟨⟨A0, A1, A2, A3, A4, A5⟩, HO, -, HZ⟩
    imodintro
    isplitl [A5 HZ]
    · isplitl [A5]; · iexact A5
      iexact HZ
    isplitl [A0 A1 A2 A3 A4]
    · isplitl [A0]; · iexact A0
      isplitl [A1]; · iexact A1
      isplitl [A2]; · iexact A2
      isplitl [A3]; · iexact A3
      iexact A4
    unfold Pipeline.Dat.owesAt Pipeline.owesWithin
    icases HO with ⟨%W, -, HO⟩; iexists W; iexact HO

/-- The launch element: the pipeline library's, at the staging cells. -/
def u₀ (F : FTy → Type) [FloatOps F] : UR sig nD τ :=
  initOf (Pipeline.cells (Pipeline.pin (pcfgs (F := F)) adm) cellOf_inj) (Pipeline.launchToks (Pipeline.pin (pcfgs (F := F)) adm) cellOf_inj)

set_option backward.isDefEq.respectTransparency.types false in
/-- At the compiled mesh, for any float values, from any memory with zero counters: every weakly fair execution of @main
    terminates, @main's result buffer ends at the reshape of the pipeline's final result array, and every argument
    array ends at what the pipeline's account of an input window says it holds (which is what it held at entry). -/
theorem run_main : θ_run defs (onTc (τ := τ) (main (F := F))) ⟨m, fun _ => 0, ρ⟩ (fun r => ∀ c : Dev nD,
      r.2.mem ((c : Thread nD τ).loc main_v0) = StableHlo.after hostOps1 (W₁ m c) (Proc.devRef .tc main_v0)
      ∧ r.2.mem ((c : Thread nD τ).loc main_arg0) = (dats m 0 c).arrAt 2 cfg0.N
      ∧ r.2.mem ((c : Thread nD τ).loc main_arg1) = (dats m 0 c).arrAt 0 cfg0.N
      ∧ r.2.mem ((c : Thread nD τ).loc main_arg2) = (dats m 0 c).arrAt 3 cfg0.N
      ∧ r.2.mem ((c : Thread nD τ).loc main_arg3) = (dats m 0 c).arrAt 4 cfg0.N) :=
  Pipeline.θ_run_regions_kit (pcfgs (F := F)) adm (dats m) () cellOf_inj EP defs₀ 𝒱₀ L lv m ρ main [.region (reg0 m), .host (seg1 m)]
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀ F)
    (hu₀ := by
      unfold u₀
      iintro Hu
      imodintro
      isplitl [Hu]
      · iapply (show (ownU _ : sProp 𝕄) ⊢ BI.own (EP _) from .rfl)
        iexact Hu
      iapply (show (BI.emp : sProp 𝕄) ⊢ bigSep Finset.univ (fun _ : Dev nD => (BI.emp : sProp 𝕄)) from by rw [BI.bigSep_emp_const])
      iempintro)
    (T₀ := T₀ m) (Tₙ := fun c => iprop(StableHlo.held (c : Thread nD τ) tailRefs (StableHlo.after hostOps1 (W₁ m c)) ∗ Inputs m c))
    (hch := ⟨fun _ => .rfl, fun _ => .rfl, fun c => by
      show iprop(StableHlo.held (c : Thread nD τ) tailRefs (StableHlo.after hostOps1 (W₁ m c)) ∗ Inputs m c ∗ R c) ⊢ _
      iintro ⟨Hh, Hi, HO⟩
      isplitr [HO]
      · isplitl [Hh]; · iexact Hh
        iexact Hi
      · iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v0) = StableHlo.after hostOps1 (W₁ m c) (Proc.devRef .tc main_v0)
      ∧ s.mem ((c : Thread nD τ).loc main_arg0) = (dats m 0 c).arrAt 2 cfg0.N
      ∧ s.mem ((c : Thread nD τ).loc main_arg1) = (dats m 0 c).arrAt 0 cfg0.N
      ∧ s.mem ((c : Thread nD τ).loc main_arg2) = (dats m 0 c).arrAt 3 cfg0.N
      ∧ s.mem ((c : Thread nD τ).loc main_arg3) = (dats m 0 c).arrAt 4 cfg0.N)
    (hfin := fun c s' => by
      rw [held_tailRefs]
      iintro ⟨⟨⟨-, Hv⟩, A0, -, A2, A3, A4⟩, HSI⟩
      icombine HSI Hv gives %hv
      icombine HSI A0 gives %h1
      icombine HSI A2 gives %h0
      icombine HSI A3 gives %h2
      icombine HSI A4 gives %h3
      imodintro
      isplitr
      · ipureintro
        exact ⟨Buf.eq_of_forall_mem_univ hv, Buf.eq_of_forall_mem_univ h0, Buf.eq_of_forall_mem_univ h1, Buf.eq_of_forall_mem_univ h2, Buf.eq_of_forall_mem_univ h3⟩
      iexact HSI)
    (hQ := fun _ h => h)

/-- THE FRAME of this program at any float values: the run, read at the argument arrays — an input window's array is
    never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2.1.trans (((dats m 0 c).arrAt_in 2 rfl _).trans (A_eq m c 2)),
     (h c).2.2.1.trans (((dats m 0 c).arrAt_in 0 rfl _).trans (A_eq m c 0)),
     (h c).2.2.2.1.trans (((dats m 0 c).arrAt_in 3 rfl _).trans (A_eq m c 3)),
     (h c).2.2.2.2.trans (((dats m 0 c).arrAt_in 4 rfl _).trans (A_eq m c 4))⟩) (run_main m ρ)

end Cert.Kernel.Hand

end
-- ==== Proof.KernelIdealBody.lean ====
/-
  The kernel body, run once per case of its one conditional.

  At the grid's first point the body fills its two scratch arrays — the support s = x · W, and z = s + x · Wself —
  from the resident blocks of x, W and Wself; at every point it then reads s whole and two row bands of z, multiplies
  the point's two row bands of adj against s, adds the bands of z, clamps at zero and stores the two results as the two
  planes of its output block. So there are two cases: the first point (scratch written, then read back) and a later
  point (scratch as an earlier point left it, read only). In each case the run is made once, at symbolic operands, and
  the list of stores each written buffer ends with is what the run finds.
-/
import proofs.«112803_g56341380989462_cont_9to1_m_248_14_alg».proof.Proof.Gen.KernelIdeal.Skeleton
import proofs.«112803_g56341380989462_cont_9to1_m_248_14_alg».proof.Proof.Gen.KernelIdeal.Launch
import proofs.«112803_g56341380989462_cont_9to1_m_248_14_alg».proof.Proof.Gen.KernelIdeal.Points
import Idealize.ShloMosaic.Lib.Tactic
import Idealize.ShloMosaic.Lib.Pipeline.Kit
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition, "this is the grid's first point", as the body computes it from the coordinate. -/
abbrev first (i : grid0.Coords) : Prop :=
  Scalar.cmpi .ne (Scalar.extui (Scalar.cmpi .eq (BitVec.ofNat 32 (i 0).val) 0#32) : BitVec 32) 0#32 = 1#1

set_option maxHeartbeats 1000000 in
/-- THE FIRST POINT. From the five input blocks at their contents and the output block and both scratch arrays at
    anything, the body runs to its end with the inputs as they were and each written buffer at its stores: two stores
    into the output block (its two planes), one whole store into each scratch array. -/
noncomputable def runFirst (c : Dev nD) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S2x200x128 .f32) (harg6 : arg6.IsWhole)
    (arg7 : Memref sig .tc .vmem S10000x128 .f32) (harg7 : arg7.IsWhole) (arg8 : Memref sig .tc .vmem S10000x128 .f32) (harg8 : arg8.IsWhole)
    (hc : first i)
    (x1 x2 : Vec F S200x10000 .f32) (x3 : Vec F S10000x128 .f32) (x4 x5 : Vec F S128x128 .f32) :
    Σ' (L6 : List (View.Piece (Elt F) S2x200x128 .f32)) (L7 : List (View.Piece (Elt F) S10000x128 .f32)), { L8 : List (View.Piece (Elt F) S10000x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x1 ∗ owns (c : Thread nD τ) arg2 fullShare x2 ∗ owns (c : Thread nD τ) arg3 fullShare x3
                ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f L8)) -∗ K ⟨⟩))
          ⊢ wp frame (wpE (defs₀ (F := F)) Variants.none c none) E (cc0__k i arg1 harg1 arg2 harg2 arg3 harg3 arg4 harg4 arg5 harg5 arg6 harg6 arg7 harg7 arg8 harg8) K } := by
  refine ⟨?_, ?_, ?_, fun E K => ?run⟩
  case run =>
    simp only [cc0__k_eq_skeleton]; unfold cc0__k_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := Memref.IsWhole.eq_unread harg1 hf1; obtain rfl := Memref.IsWhole.eq_unread harg2 hf2
    obtain rfl := Memref.IsWhole.eq_unread harg3 hf3; obtain rfl := Memref.IsWhole.eq_unread harg4 hf4
    obtain rfl := Memref.IsWhole.eq_unread harg5 hf5
    sl_exec (disch := exact hc)
    sl_step
    iapply Hk
    isplitl [H1]
    · iexists _; isplitr; · ipureintro; exact Memref.IsWhole.read_unread harg1 _
      iexact H1
    isplitl [H2]
    · iexists _; isplitr; · ipureintro; exact Memref.IsWhole.read_unread harg2 _
      iexact H2
    isplitl [H3]
    · iexists _; isplitr; · ipureintro; exact Memref.IsWhole.read_unread harg3 _
      iexact H3
    isplitl [H4]
    · iexists _; isplitr; · ipureintro; exact Memref.IsWhole.read_unread harg4 _
      iexact H4
    isplitl [H5]
    · iexists _; isplitr; · ipureintro; exact Memref.IsWhole.read_unread harg5 _
      iexact H5
    isplitl [H6]; · iexists _; iexact H6
    isplitl [H7]; · iexists _; iexact H7
    iexists _; iexact H8

set_option maxHeartbeats 1000000 in
/-- A LATER POINT. From the two adj blocks at their contents, both scratch arrays at what an earlier point left and the
    output block at anything, the body runs to its end with the blocks and the scratch as they were and the output
    block at its two stores. The other three input blocks are not touched and stay with the caller. -/
noncomputable def runLater (c : Dev nD) (i : grid0.Coords)
    (arg1 : Memref sig .tc .vmem S200x10000 .f32) (harg1 : arg1.IsWhole) (arg2 : Memref sig .tc .vmem S200x10000 .f32) (harg2 : arg2.IsWhole)
    (arg3 : Memref sig .tc .vmem S10000x128 .f32) (harg3 : arg3.IsWhole) (arg4 : Memref sig .tc .vmem S128x128 .f32) (harg4 : arg4.IsWhole)
    (arg5 : Memref sig .tc .vmem S128x128 .f32) (harg5 : arg5.IsWhole) (arg6 : Memref sig .tc .vmem S2x200x128 .f32) (harg6 : arg6.IsWhole)
    (arg7 : Memref sig .tc .vmem S10000x128 .f32) (harg7 : arg7.IsWhole) (arg8 : Memref sig .tc .vmem S10000x128 .f32) (harg8 : arg8.IsWhole)
    (hc : ¬first i)
    (x1 x2 : Vec F S200x10000 .f32) (s7 s8 : Vec F S10000x128 .f32) :
    { L6 : List (View.Piece (Elt F) S2x200x128 .f32) //
      ∀ (E : Set ℕ) (K : PUnit → sProp 𝕄),
        iprop(owns (c : Thread nD τ) arg1 fullShare x1 ∗ owns (c : Thread nD τ) arg2 fullShare x2
            ∗ (∃ d, owns (c : Thread nD τ) arg6 fullShare d) ∗ owns (c : Thread nD τ) arg7 fullShare s7 ∗ owns (c : Thread nD τ) arg8 fullShare s8
            ∗ (iprop(owns (c : Thread nD τ) arg1 fullShare x1 ∗ owns (c : Thread nD τ) arg2 fullShare x2
                ∗ (∃ f, arg6.view.loc (c : Thread nD τ) ↦[arg6.view.set]{fullShare} arg6.view.writes (Elt F) f L6)
                ∗ owns (c : Thread nD τ) arg7 fullShare s7 ∗ owns (c : Thread nD τ) arg8 fullShare s8) -∗ K ⟨⟩))
          ⊢ wp frame (wpE (defs₀ (F := F)) Variants.none c none) E (cc0__k i arg1 harg1 arg2 harg2 arg3 harg3 arg4 harg4 arg5 harg5 arg6 harg6 arg7 harg7 arg8 harg8) K } := by
  refine ⟨?_, fun E K => ?run⟩
  case run =>
    simp only [cc0__k_eq_skeleton]; unfold cc0__k_skel
    unfold owns
    iintro ⟨⟨%f1, %hf1, H1⟩, ⟨%f2, %hf2, H2⟩, ⟨%d6, %f6, -, H6⟩, ⟨%f7, %hf7, H7⟩, ⟨%f8, %hf8, H8⟩, Hk⟩
    obtain rfl := Memref.IsWhole.eq_unread harg1 hf1; obtain rfl := Memref.IsWhole.eq_unread harg2 hf2
    obtain rfl := Memref.IsWhole.eq_unread harg7 hf7; obtain rfl := Memref.IsWhole.eq_unread harg8 hf8
    sl_exec (disch := exact hc)
    sl_step
    iapply Hk
    isplitl [H1]
    · iexists _; isplitr; · ipureintro; exact Memref.IsWhole.read_unread harg1 _
      iexact H1
    isplitl [H2]
    · iexists _; isplitr; · ipureintro; exact Memref.IsWhole.read_unread harg2 _
      iexact H2
    isplitl [H6]; · iexists _; iexact H6
    isplitl [H7]
    · iexists _; isplitr; · ipureintro; exact Memref.IsWhole.read_unread harg7 _
      iexact H7
    iexists _; isplitr; · ipureintro; exact Memref.IsWhole.read_unread harg8 _
    iexact H8

end Cert.KernelIdeal.Hand

end
-- ==== Proof.KernelIdealData.lean ====
/-
  What the pipeline's buffers hold point by point, and the body obligation.

  The grid has 25 points. Point t stages rows [200 t, 200 t + 200) of adj in one window and rows
  [5000 + 200 t, 5000 + 200 t + 200) in another (both windows read the one array adj), keeps x, W and Wself resident,
  and writes back a [2, 200, 128] block: plane h holds rows [5000 h + 200 t, +200) of the result.  The two scratch
  arrays are written at the first point only — s = x · W and z = s + x · Wself — and read at every point, so the
  invariant between points carries them at exactly what the first point left.
-/
import proofs.«112803_g56341380989462_cont_9to1_m_248_14_alg».proof.Proof.KernelIdealBody
import Idealize.ShloMosaic.Lib.Ring
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the region finds them, and the windows' blocks -/

/-- Core `c`'s buffers when the region is entered: the launch contents (no host operation runs before the region). -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first point is the one whose coordinate is zero — decided over the grid. -/
theorem hfirst : ∀ t : Fin cfg0.N, first (grid0.coords t) ↔ t.val = 0 :=
  (by decide +kernel : ∀ t : Fin grid0.N, first (grid0.coords t) ↔ t.val = 0)

/-- The first point. -/
abbrev t₀ : Fin cfg0.N := ⟨0, by decide⟩

/-- No window is ever idle: every point loads every input and stores the output block. -/
theorem live0 : ∀ (w : Fin cfg0.W) (i : grid0.Coords), cfg0.idle w i = false := by decide +kernel

/-! ## The staging memrefs at a point, and the scratch -/

abbrev ms0 (t : Fin cfg0.N) : Memref sig .tc .vmem S200x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S10000x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x200x128 .f32 := win0_5.stage (cfg0.slots t 5)
abbrev hs5 (t : Fin cfg0.N) : (ms5 t).IsWhole := hstage0_5 ((cfg0.slots t 5).cast nbuf0_5)
/-- The scratch holding the support s, -/
abbrev scS : Memref sig .tc .vmem S10000x128 .f32 := Memref.whole cc0_scratch0
/-- and the scratch holding z. -/
abbrev scZ : Memref sig .tc .vmem S10000x128 .f32 := Memref.whole cc0_scratch1
/-- Views through which contents are stated (by covering stores the choice does not matter). -/
abbrev VO : View sig .tc .vmem S2x200x128 .f32 := (Memref.whole cc0_stg5_0 : Memref sig .tc .vmem S2x200x128 .f32).view
abbrev VS : View sig .tc .vmem S10000x128 .f32 := (scS : Memref sig .tc .vmem S10000x128 .f32).view
abbrev VZ : View sig .tc .vmem S10000x128 .f32 := (scZ : Memref sig .tc .vmem S10000x128 .f32).view

/-! ## What the first point leaves -/

/-- The first point's run at the first point's memrefs and blocks. -/
abbrev firstRun (c : Dev nD) :=
  runFirst (F := F) c (grid0.coords t₀) (ms0 t₀) (hs0 t₀) (ms1 t₀) (hs1 t₀) (ms2 t₀) (hs2 t₀) (ms3 t₀) (hs3 t₀) (ms4 t₀) (hs4 t₀) (ms5 t₀) (hs5 t₀)
    scS (Memref.isWhole_whole _) scZ (Memref.isWhole_whole _) ((hfirst t₀).mpr rfl)
    (iblk m c 0 t₀) (iblk m c 1 t₀) (iblk m c 2 t₀) (iblk m c 3 t₀) (iblk m c 4 t₀)

/-- Its two stores tile the output block; -/
theorem coverFirstO (c : Dev nD) (y : S2x200x128.Idx) : ∃ pc ∈ (firstRun m c).1, y ∈ pc.1.set :=
  View.cover_of_tiledL (firstRun m c).1 S1x200x128.size (by sl_kernel_rfl) y
/-- its one store fills the support's scratch; -/
theorem coverFirstS (c : Dev nD) (y : S10000x128.Idx) : ∃ pc ∈ (firstRun m c).2.1, y ∈ pc.1.set :=
  View.cover_of_tiledL (firstRun m c).2.1 S10000x128.size (by sl_kernel_rfl) y
/-- and its one store fills z's. -/
theorem coverFirstZ (c : Dev nD) (y : S10000x128.Idx) : ∃ pc ∈ (firstRun m c).2.2.1, y ∈ pc.1.set :=
  View.cover_of_tiledL (firstRun m c).2.2.1 S10000x128.size (by sl_kernel_rfl) y

/-- The support's scratch after the first point, -/
def sKept (c : Dev nD) : Vec F S10000x128 .f32 := VS.read (Elt F) (VS.writes (Elt F) VS.junk (firstRun m c).2.1)
/-- z's scratch after the first point, -/
def zKept (c : Dev nD) : Vec F S10000x128 .f32 := VZ.read (Elt F) (VZ.writes (Elt F) VZ.junk (firstRun m c).2.2.1)
/-- and the output block after the first point. -/
def outFirst (c : Dev nD) : Vec F S2x200x128 .f32 := VO.read (Elt F) (VO.writes (Elt F) VO.junk (firstRun m c).1)

/-! ## What a later point leaves -/

/-- A later point's run at that point's memrefs and adj blocks, the scratch at what the first point left. -/
abbrev laterRun (c : Dev nD) (t : Fin cfg0.N) (ht : t.val ≠ 0) :=
  runLater (F := F) c (grid0.coords t) (ms0 t) (hs0 t) (ms1 t) (hs1 t) (ms2 t) (hs2 t) (ms3 t) (hs3 t) (ms4 t) (hs4 t) (ms5 t) (hs5 t)
    scS (Memref.isWhole_whole _) scZ (Memref.isWhole_whole _) (fun h => ht ((hfirst t).mp h))
    (iblk m c 0 t) (iblk m c 1 t) (sKept m c) (zKept m c)

theorem coverLaterO (c : Dev nD) (t : Fin cfg0.N) (ht : t.val ≠ 0) (y : S2x200x128.Idx) : ∃ pc ∈ (laterRun m c t ht).1, y ∈ pc.1.set :=
  View.cover_of_tiledL (laterRun m c t ht).1 S1x200x128.size (by sl_kernel_rfl) y

def outLater (c : Dev nD) (t : Fin cfg0.N) (ht : t.val ≠ 0) : Vec F S2x200x128 .f32 :=
  VO.read (Elt F) (VO.writes (Elt F) VO.junk (laterRun m c t ht).1)

/-- The output block after point `t`. -/
def outAt (c : Dev nD) (t : Fin cfg0.N) : Vec F S2x200x128 .f32 :=
  if ht : t.val = 0 then outFirst m c else outLater m c t ht

theorem outAt_first (c : Dev nD) (t : Fin cfg0.N) (ht : t.val = 0) : outAt m c t = outFirst m c := dif_pos ht
theorem outAt_later (c : Dev nD) (t : Fin cfg0.N) (ht : t.val ≠ 0) : outAt m c t = outLater m c t ht := dif_neg ht

/-! ## The invariant between points -/

/-- Before the first point both scratch arrays hold anything; afterwards they hold what the first point left. -/
def PhiS (c : Dev nD) (n : ℕ) : sProp 𝕄 :=
  if n = 0 then iprop((∃ d, owns (c : Thread nD τ) scS fullShare d) ∗ (∃ d, owns (c : Thread nD τ) scZ fullShare d))
  else iprop(owns (c : Thread nD τ) scS fullShare (sKept m c) ∗ owns (c : Thread nD τ) scZ fullShare (zKept m c))

theorem PhiS_zero (c : Dev nD) (n : ℕ) (h : n = 0) :
    PhiS m c n = iprop((∃ d, owns (c : Thread nD τ) scS fullShare d) ∗ (∃ d, owns (c : Thread nD τ) scZ fullShare d)) := if_pos h
theorem PhiS_pos (c : Dev nD) (n : ℕ) (h : n ≠ 0) :
    PhiS m c n = iprop(owns (c : Thread nD τ) scS fullShare (sKept m c) ∗ owns (c : Thread nD τ) scZ fullShare (zKept m c)) := if_neg h

/-! ## The proof data -/

/-- The arrays at their region-entry contents; after the body every input's buffer still at its block and the output's
    at `outAt`; the invariant `PhiS`; the array adj, read by two windows, held half by each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

/-- Each input's current staging buffer holds its block at every point, fetched there or not: the body leaves an
    input's block in place, and where the pipeline does not refetch, the block index has not moved. -/
theorem before0 (c : Dev nD) (t : Fin cfg0.N) (d) : (dats m 0 c).before 0 t d = iblk m c 0 t :=
  ((dats m 0 c).before_in_eq_fetched 0 rfl (live0 0) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (live0 1) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (live0 2) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (live0 3) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (live0 4) (fun _ _ _ => rfl) (fun t => by rw [after4]; unfold Dat.blockOf iblk; rw [A_eq]; try rfl) t d).trans
    (by unfold Dat.fetched Dat.blockOf iblk; rw [A_eq]; try rfl)

/-! ## The body obligation -/

set_option maxHeartbeats 4000000 in
/-- The body at any point. The inputs' buffers hold their blocks; at the first point the scratch holds anything and the
    run fills it, at a later point the scratch holds what the first point left and the run only reads it; either way
    the output block ends at the two planes the run stores, the inputs as they were. -/
theorem sound_body (c : Dev nD) (t : Fin cfg0.N) :
    iprop((dats m 0 c).Φ t.castSucc ∗ (dats m 0 c).owesAt () t.castSucc
        ∗ (∃ d, owns (c : Thread nD τ) (ms0 t) fullShare ((dats m 0 c).before 0 t d))
        ∗ (∃ d, owns (c : Thread nD τ) (ms1 t) fullShare ((dats m 0 c).before 1 t d))
        ∗ (∃ d, owns (c : Thread nD τ) (ms2 t) fullShare ((dats m 0 c).before 2 t d))
        ∗ (∃ d, owns (c : Thread nD τ) (ms3 t) fullShare ((dats m 0 c).before 3 t d))
        ∗ (∃ d, owns (c : Thread nD τ) (ms4 t) fullShare ((dats m 0 c).before 4 t d))
        ∗ (∃ d, owns (c : Thread nD τ) (ms5 t) fullShare ((dats m 0 c).before 5 t d)))
      ⊢ wp frame (wpE (defs₀ (F := F)) Variants.none c none) Set.univ (bodyAt0 t) (fun _ =>
          iprop((dats m 0 c).Φ t.succ ∗ (dats m 0 c).owesAt () t.succ
            ∗ (dats m 0 c).leavesExact 0 t ∗ (dats m 0 c).leavesExact 1 t ∗ (dats m 0 c).leavesExact 2 t
            ∗ (dats m 0 c).leavesExact 3 t ∗ (dats m 0 c).leavesExact 4 t ∗ (dats m 0 c).leavesExact 5 t)) := by
  have hl : ∀ w, (dats m 0 c).leavesExact w t
      = owns (c : Thread nD τ) ((cfg0.win w).stage (cfg0.slots t w)) fullShare ((dats m 0 c).after w t) := fun w => by
    unfold Dat.leavesExact; rw [live0 w]
  rw [hl 0, hl 1, hl 2, hl 3, hl 4, hl 5, after0, after1, after2, after3, after4, after5]
  simp only [before0, before1, before2, before3, before4]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  unfold bodyAt0
  by_cases hz : t.val = 0
  · have ht : t = t₀ := Fin.ext hz
    subst ht
    rw [PhiS_zero m c _ rfl, outAt_first m c t₀ rfl]
    unfold outFirst sKept zKept
    iintro ⟨⟨HS, HZ⟩, Ho, ⟨%d0, H0⟩, ⟨%d1, H1⟩, ⟨%d2, H2⟩, ⟨%d3, H3⟩, ⟨%d4, H4⟩, ⟨%d5, H5⟩⟩
    iapply ((firstRun m c).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    isplitl [HZ]; · iexact HZ
    iintro ⟨H0, H1, H2, H3, H4, ⟨%e6, H6⟩, ⟨%e7, H7⟩, ⟨%e8, H8⟩⟩
    isplitl [H7 H8]
    · isplitl [H7]
      · unfold owns; iexists _; isplitr
        swap; · iexact H7
        ipureintro; exact View.read_writes_of_cover _ _ _ _ _ (coverFirstS m c)
      · unfold owns; iexists _; isplitr
        swap; · iexact H8
        ipureintro; exact View.read_writes_of_cover _ _ _ _ _ (coverFirstZ m c)
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H6
    ipureintro; exact View.read_writes_of_cover _ _ _ _ _ (coverFirstO m c)
  · rw [PhiS_pos m c _ hz, outAt_later m c t hz]
    unfold outLater
    iintro ⟨⟨HS, HZ⟩, Ho, ⟨%d0, H0⟩, ⟨%d1, H1⟩, ⟨%d2, H2⟩, ⟨%d3, H3⟩, ⟨%d4, H4⟩, ⟨%d5, H5⟩⟩
    iapply ((laterRun m c t hz).2 Set.univ _)
    isplitl [H0]; · iexact H0
    isplitl [H1]; · iexact H1
    isplitl [H5]; · iexists _; iexact H5
    isplitl [HS]; · iexact HS
    isplitl [HZ]; · iexact HZ
    iintro ⟨H0, H1, ⟨%e6, H6⟩, HS, HZ⟩
    isplitl [HS HZ]
    · isplitl [HS]; · iexact HS
      iexact HZ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H6
    ipureintro; exact View.read_writes_of_cover _ _ _ _ _ (coverLaterO m c t hz)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealRun.lean ====
/-
  The launch: @main as a kernel region followed by one host operation.

  @main calls the pipeline once and then reshapes its [2, 5000, 128] result to [10000, 128].  Two of the pipeline's
  windows read ONE array (adj): at the region's entry that array's full share is split in two halves, one per window,
  and both halves come back unchanged at the exit (an input array is never written).  The other arrays are held whole.
  After the region the reshape reads the pipeline's result array and writes @main's result buffer; nothing else is
  touched.  The run states every argument array as it was at launch and the result as the reshape of the pipeline's
  final result array.
-/
import proofs.«112803_g56341380989462_cont_9to1_m_248_14_alg».proof.Proof.KernelIdealData
import Idealize.ShloMosaic.Lib.Pipeline.Regions
import Idealize.ShloMosaic.Lib.Pipeline.FrameSuffix
import proofs.«112803_g56341380989462_cont_9to1_m_248_14_alg».proof.Proof.LibSharedArrays

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pipeline library's algebra is the whole user algebra. -/
abbrev EP : Emb (UR sig nD τ) (MT nD τ sig Unit (Elt F) ℕ (UR sig nD τ) ℕ) := emb₁
abbrev 𝒱₀ : Variants := Variants.none
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

/-- Core `c`'s buffers at launch, as a valuation. -/
abbrev V₀ (c : Dev nD) : Valuation τ sig (Elt F) := fun b => m ((c : Dev nD), b)

/-! ## The unscoped buffers and the pipeline's arrays, listed -/

omit [FloatOps F] in
/-- The core's unscoped buffers, one by one. -/
theorem unscopedBufs_list (c : Dev nD) (X : (b : Ref sig .tc) → Buf (Elt F) ((c : Thread nD τ).loc b)) :
    (unscopedBufs c X : sProp 𝕄)
      = iprop((((c : Thread nD τ).loc main_arg0) ↦{fullShare} X main_arg0) ∗ (((c : Thread nD τ).loc main_arg1) ↦{fullShare} X main_arg1)
          ∗ (((c : Thread nD τ).loc main_arg2) ↦{fullShare} X main_arg2) ∗ (((c : Thread nD τ).loc main_arg3) ↦{fullShare} X main_arg3)
          ∗ (((c : Thread nD τ).loc main_call0_v0) ↦{fullShare} X main_call0_v0) ∗ (((c : Thread nD τ).loc main_v0) ↦{fullShare} X main_v0)) := by
  unfold unscopedBufs
  exact bigSep_eq_bigSepL_of_eq [main_arg0, main_arg1, main_arg2, main_arg3, main_call0_v0, main_v0] (by decide) (by decide) _

/-- The share each window holds its array at: adj's two halves for the two windows that read it, the full share otherwise. -/
theorem share0 (c : Dev nD) : (dats m 0 c).share 0 = fullShare.left := by
  unfold Dat.share; rw [if_neg (by decide)]; dsimp only [dats]
theorem share1 (c : Dev nD) : (dats m 0 c).share 1 = fullShare.right := by
  unfold Dat.share; rw [if_neg (by decide)]; dsimp only [dats]
theorem share2 (c : Dev nD) : (dats m 0 c).share 2 = fullShare := by
  unfold Dat.share; rw [if_neg (by decide)]; dsimp only [dats]
theorem share3 (c : Dev nD) : (dats m 0 c).share 3 = fullShare := by
  unfold Dat.share; rw [if_neg (by decide)]; dsimp only [dats]
theorem share4 (c : Dev nD) : (dats m 0 c).share 4 = fullShare := by
  unfold Dat.share; rw [if_neg (by decide)]; dsimp only [dats]
theorem share5 (c : Dev nD) : (dats m 0 c).share 5 = fullShare := by
  unfold Dat.share; rw [if_pos (by decide)]

/-- The pipeline's arrays at contents `A`, window by window: adj twice, at the two halves of its share. -/
theorem arrays_list (c : Dev nD) (A : (w : Fin cfg0.W) → Buf (Elt F) ((cfg0.win w).arr.view.loc (c : Thread nD τ))) :
    ((dats m 0 c).arrays A : sProp 𝕄)
      = iprop((((c : Thread nD τ).loc main_arg1) ↦{fullShare.left} A 0) ∗ (((c : Thread nD τ).loc main_arg1) ↦{fullShare.right} A 1)
          ∗ (((c : Thread nD τ).loc main_arg0) ↦{fullShare} A 2) ∗ (((c : Thread nD τ).loc main_arg2) ↦{fullShare} A 3)
          ∗ (((c : Thread nD τ).loc main_arg3) ↦{fullShare} A 4) ∗ (((c : Thread nD τ).loc main_call0_v0) ↦{fullShare} A 5)) := by
  have h : ((dats m 0 c).arrays A : sProp 𝕄)
      = bigSep Finset.univ fun w : Fin cfg0.W => (((c : Thread nD τ).loc (Pipeline.arrRef spec0 w)) ↦{(dats m 0 c).share w} A w : sProp 𝕄) := by
    unfold Dat.arrays
    exact bigSep_congr fun w _ => by rw [(arr_whole0 w).set_eq_univ]
  rw [h, bigSep_W0, share0, share1, share2, share3, share4, share5]

/-! ## The host operation after the region -/

/-- The two buffers the reshape touches. -/
def tailRefs : Finset (DevRef τ sig) := {Proc.devRef .tc main_call0_v0, Proc.devRef .tc main_v0}

omit [FloatOps F] in
theorem held_tailRefs (c : Dev nD) (X : Valuation τ sig (Elt F)) :
    (StableHlo.held (c : Thread nD τ) tailRefs X : sProp 𝕄)
      = iprop(((((c : Dev nD), Proc.devRef .tc main_call0_v0) : Loc nD τ sig) ↦{fullShare} X (Proc.devRef .tc main_call0_v0))
          ∗ ((((c : Dev nD), Proc.devRef .tc main_v0) : Loc nD τ sig) ↦{fullShare} X (Proc.devRef .tc main_v0))) := by
  unfold tailRefs
  exact SharedArrays.held_pair (c : Thread nD τ) (StableHlo.devRef_ne_of_ne (by decide)) X

/-- Only the output window stands on the pipeline's result array. -/
theorem only_out : ∀ w : Fin 6, Pipeline.arrRef spec0 w = main_call0_v0 → w = 5 := by decide

/-- The core's buffers when the region has ended: the pipeline's arrays at their final contents, the rest as launched. -/
def W₁ (c : Dev nD) : Valuation τ sig (Elt F) :=
  Pipeline.withArrays spec0 c (V₀ m c) (fun w => (dats m 0 c).arrAt w cfg0.N)

/-- The pipeline's result array holds its final contents; -/
theorem W₁_out (c : Dev nD) : W₁ m c (Proc.devRef .tc main_call0_v0) = (dats m 0 c).arrAt 5 cfg0.N :=
  SharedArrays.withArrays_arr_of_unique spec0 c (V₀ m c) (fun w => (dats m 0 c).arrAt w cfg0.N) 5 only_out

/-- @main's result buffer still holds what it held at launch. -/
theorem W₁_res (c : Dev nD) : W₁ m c (Proc.devRef .tc main_v0) = V₀ m c (Proc.devRef .tc main_v0) :=
  Pipeline.withArrays_of_ne spec0 c _ _ main_v0 (by decide)

/-- What rides past the reshape: the argument arrays, adj in its two halves. -/
abbrev Inputs (c : Dev nD) : sProp 𝕄 :=
  iprop((((c : Thread nD τ).loc main_arg1) ↦{fullShare.left} (dats m 0 c).arrAt 0 cfg0.N) ∗ (((c : Thread nD τ).loc main_arg1) ↦{fullShare.right} (dats m 0 c).arrAt 1 cfg0.N)
    ∗ (((c : Thread nD τ).loc main_arg0) ↦{fullShare} (dats m 0 c).arrAt 2 cfg0.N) ∗ (((c : Thread nD τ).loc main_arg2) ↦{fullShare} (dats m 0 c).arrAt 3 cfg0.N)
    ∗ (((c : Thread nD τ).loc main_arg3) ↦{fullShare} (dats m 0 c).arrAt 4 cfg0.N))

/-- THE HOST SEGMENT: the reshape over the two buffers it touches. -/
def seg1 : Pipeline.HostSeg (Name := ℕ) (U := UR sig nD τ) (pcfgs (F := F)) defs₀ 𝒱₀ L lv :=
  Pipeline.HostSeg.ofOps _ _ _ _ _ tailRefs hostOps1
    (by intro op hop; simp only [List.mem_cons, List.mem_nil_iff, or_false] at hop; subst hop; exact Finset.Subset.refl _)
    (by intro _ h; (repeat (cases h with | head => rfl | tail _ h => ?_)); exact nomatch h)
    (W₁ m) (fun c => iprop(Inputs m c ∗ R c))

/-! ## The region, and the run -/

/-- The thread state the launch makes: every unscoped buffer at its launch contents, the core owing nothing. -/
abbrev T₀ (c : Dev nD) : sProp 𝕄 := iprop(StableHlo.held (c : Thread nD τ) (Pipeline.ucRefs τ sig) (V₀ m c) ∗ R c)

set_option backward.isDefEq.respectTransparency.types false in
/-- THE REGION: entered from the launch's state — adj's share split between the two windows that read it, the other
    arrays whole, @main's result buffer bypassing —, left with every array at its final contents, the two scratch arrays
    forgotten. The kernel has no semaphore of its own. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := T₀ m c
  post c := iprop(StableHlo.held (c : Thread nD τ) tailRefs (W₁ m c) ∗ Inputs m c ∗ R c)
  X c := iprop(emp)
  Y c := iprop(emp)
  Z c := ((c : Thread nD τ).loc main_v0) ↦{fullShare} V m c main_v0
  hentry c := by
    unfold T₀
    rw [show StableHlo.held (c : Thread nD τ) (Pipeline.ucRefs τ sig) (V₀ m c) = unscopedBufs c (V m c) from (Pipeline.unscopedBufs_held c _).symm,
      unscopedBufs_list, arrays_list]
    iintro ⟨⟨⟨H0, H1, H2, H3, H4, H5⟩, HO⟩, -, -⟩
    ihave H1s := (pointsTo_share (PosShare.mem_left_op_right fullShare)).1 $$ H1
    icases H1s with ⟨H1l, H1r⟩
    imodintro
    isplitl [H0 H1l H1r H2 H3 H4]
    · isplitl [H1l]; · iexact H1l
      isplitl [H1r]; · iexact H1r
      isplitl [H0]; · iexact H0
      isplitl [H2]; · iexact H2
      isplitl [H3]; · iexact H3
      iexact H4
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact H5
  hin c := by
    rw [show (dats m 0 c).Φ 0 = PhiS m c 0 from rfl, PhiS_zero m c 0 rfl, scopedRest0_eq]
    simp only [scS, scZ, owns_whole]
    iintro ⟨-, -, HS, HZ⟩
    isplitl [HS]; · iexact HS
    iexact HZ
  hout c := by
    rw [Pipeline.ownSems0_none, show (dats m 0 c).Φ (Fin.last cfg0.N) = PhiS m c cfg0.N from rfl,
      PhiS_pos m c _ (by have h : cfg0.N = 25 := N_0; omega), scopedRest0_eq]
    simp only [scS, scZ, owns_whole]
    iintro ⟨HS, HZ⟩
    isplitr; · iempintro
    isplitr; · iempintro
    isplitl [HS]; · iexists _; iexact HS
    iexists _; iexact HZ
  hexit c := by
    rw [arrays_list, held_tailRefs, W₁_out, W₁_res]
    iintro ⟨⟨A0, A1, A2, A3, A4, A5⟩, HO, -, HZ⟩
    imodintro
    isplitl [A5 HZ]
    · isplitl [A5]; · iexact A5
      iexact HZ
    isplitl [A0 A1 A2 A3 A4]
    · isplitl [A0]; · iexact A0
      isplitl [A1]; · iexact A1
      isplitl [A2]; · iexact A2
      isplitl [A3]; · iexact A3
      iexact A4
    unfold Pipeline.Dat.owesAt Pipeline.owesWithin
    icases HO with ⟨%W, -, HO⟩; iexists W; iexact HO

/-- The launch element: the pipeline library's, at the staging cells. -/
def u₀ (F : FTy → Type) [FloatOps F] : UR sig nD τ :=
  initOf (Pipeline.cells (Pipeline.pin (pcfgs (F := F)) adm) cellOf_inj) (Pipeline.launchToks (Pipeline.pin (pcfgs (F := F)) adm) cellOf_inj)

set_option backward.isDefEq.respectTransparency.types false in
/-- At the compiled mesh, for any float values, from any memory with zero counters: every weakly fair execution of @main
    terminates, @main's result buffer ends at the reshape of the pipeline's final result array, and every argument
    array ends at what the pipeline's account of an input window says it holds (which is what it held at entry). -/
theorem run_main : θ_run defs (onTc (τ := τ) (main (F := F))) ⟨m, fun _ => 0, ρ⟩ (fun r => ∀ c : Dev nD,
      r.2.mem ((c : Thread nD τ).loc main_v0) = StableHlo.after hostOps1 (W₁ m c) (Proc.devRef .tc main_v0)
      ∧ r.2.mem ((c : Thread nD τ).loc main_arg0) = (dats m 0 c).arrAt 2 cfg0.N
      ∧ r.2.mem ((c : Thread nD τ).loc main_arg1) = (dats m 0 c).arrAt 0 cfg0.N
      ∧ r.2.mem ((c : Thread nD τ).loc main_arg2) = (dats m 0 c).arrAt 3 cfg0.N
      ∧ r.2.mem ((c : Thread nD τ).loc main_arg3) = (dats m 0 c).arrAt 4 cfg0.N) :=
  Pipeline.θ_run_regions_kit (pcfgs (F := F)) adm (dats m) () cellOf_inj EP defs₀ 𝒱₀ L lv m ρ main [.region (reg0 m), .host (seg1 m)]
    (fun c Q => by rw [main_segs adm (dats m) () 𝒱₀ L lv (seg1 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀ F)
    (hu₀ := by
      unfold u₀
      iintro Hu
      imodintro
      isplitl [Hu]
      · iapply (show (ownU _ : sProp 𝕄) ⊢ BI.own (EP _) from .rfl)
        iexact Hu
      iapply (show (BI.emp : sProp 𝕄) ⊢ bigSep Finset.univ (fun _ : Dev nD => (BI.emp : sProp 𝕄)) from by rw [BI.bigSep_emp_const])
      iempintro)
    (T₀ := T₀ m) (Tₙ := fun c => iprop(StableHlo.held (c : Thread nD τ) tailRefs (StableHlo.after hostOps1 (W₁ m c)) ∗ Inputs m c))
    (hch := ⟨fun _ => .rfl, fun _ => .rfl, fun c => by
      show iprop(StableHlo.held (c : Thread nD τ) tailRefs (StableHlo.after hostOps1 (W₁ m c)) ∗ Inputs m c ∗ R c) ⊢ _
      iintro ⟨Hh, Hi, HO⟩
      isplitr [HO]
      · isplitl [Hh]; · iexact Hh
        iexact Hi
      · iexact HO⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v0) = StableHlo.after hostOps1 (W₁ m c) (Proc.devRef .tc main_v0)
      ∧ s.mem ((c : Thread nD τ).loc main_arg0) = (dats m 0 c).arrAt 2 cfg0.N
      ∧ s.mem ((c : Thread nD τ).loc main_arg1) = (dats m 0 c).arrAt 0 cfg0.N
      ∧ s.mem ((c : Thread nD τ).loc main_arg2) = (dats m 0 c).arrAt 3 cfg0.N
      ∧ s.mem ((c : Thread nD τ).loc main_arg3) = (dats m 0 c).arrAt 4 cfg0.N)
    (hfin := fun c s' => by
      rw [held_tailRefs]
      iintro ⟨⟨⟨-, Hv⟩, A0, -, A2, A3, A4⟩, HSI⟩
      icombine HSI Hv gives %hv
      icombine HSI A0 gives %h1
      icombine HSI A2 gives %h0
      icombine HSI A3 gives %h2
      icombine HSI A4 gives %h3
      imodintro
      isplitr
      · ipureintro
        exact ⟨Buf.eq_of_forall_mem_univ hv, Buf.eq_of_forall_mem_univ h0, Buf.eq_of_forall_mem_univ h1, Buf.eq_of_forall_mem_univ h2, Buf.eq_of_forall_mem_univ h3⟩
      iexact HSI)
    (hQ := fun _ h => h)

/-- THE FRAME of this program at any float values: the run, read at the argument arrays — an input window's array is
    never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2.1.trans (((dats m 0 c).arrAt_in 2 rfl _).trans (A_eq m c 2)),
     (h c).2.2.1.trans (((dats m 0 c).arrAt_in 0 rfl _).trans (A_eq m c 0)),
     (h c).2.2.2.1.trans (((dats m 0 c).arrAt_in 3 rfl _).trans (A_eq m c 3)),
     (h c).2.2.2.2.trans (((dats m 0 c).arrAt_in 4 rfl _).trans (A_eq m c 4))⟩) (run_main m ρ)

end Cert.KernelIdeal.Hand

end
-- ==== Proof.KernelIdealPieces.lean ====
/-
  What the body's stores leave, as values of the blocks.

  The first point's one whole store into each scratch array leaves the stored support s and the stored z of the resident
  blocks of x, W and Wself.  Every point's two stores into its output block leave the two planes: each the point's adj
  band against s, plus the band of z at the point's rows, clamped at zero.  At the first point the body reads s and z
  back as it has just written them; at a later point it reads them as the first point left them — the same values.
-/
import proofs.«112803_g56341380989462_cont_9to1_m_248_14_alg».proof.Proof.KernelIdealData
import Idealize.ShloMosaic.Lib.Pipeline.Value
import Idealize.ShloMosaic.Lib.Tactic
import Idealize.ShloMosaic.Lib.ValueIdx

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]
variable (m : (ℓ : Loc nD τ sig) → Buf (Elt F) ℓ)

theorem hz2 : (![0, 0] : Fin 2 → Nat) = fun _ => 0 := funext fun a => by fin_cases a <;> rfl

/-- The support as the first point stores it: x · W of the resident blocks. -/
abbrev sFirst (c : Dev nD) : Vec F S10000x128 .f32 := k0_pay2 (iblk m c 2 t₀) (iblk m c 3 t₀)
/-- z as the first point stores it. -/
abbrev zFirst (c : Dev nD) : Vec F S10000x128 .f32 := k0_pay3 (iblk m c 2 t₀) (iblk m c 3 t₀) (iblk m c 4 t₀)

/-- The support's scratch after the first point holds its one whole store's payload. -/
theorem sKept_eq (c : Dev nD) : sKept m c = sFirst m c := by
  unfold sKept
  rw [View.read_writes_eq_canon _ _ _ (coverFirstS m c)]
  unfold firstRun runFirst
  dsimp only
  sl_unfold_words
  rw [View.canon_unit_zero hz2]
  simp only [View.readAt_eq_ld, Memref.IsWhole.read_unread, View.ld_unit_zero (S := S10000x128) hz2, View.ld_unit_zero (S := S128x128) hz2]

/-- z's scratch after the first point holds its one whole store's payload. -/
theorem zKept_eq (c : Dev nD) : zKept m c = zFirst m c := by
  unfold zKept
  rw [View.read_writes_eq_canon _ _ _ (coverFirstZ m c)]
  unfold firstRun runFirst
  dsimp only
  sl_unfold_words
  rw [View.canon_unit_zero hz2]
  simp only [View.readAt_eq_ld, Memref.IsWhole.read_unread, View.ld_unit_zero (S := S10000x128) hz2, View.ld_unit_zero (S := S128x128) hz2]

/-- The two planes a point stores into its output block, over the support, the point's two adj bands and the two
    row bands of z the point loads. -/
def planesAt (c : Dev nD) (t : Fin cfg0.N) : List (View.Piece (Elt F) S2x200x128 .f32) :=
  [⟨Rect.unit ![1, 0, 0] S1x200x128.size inb_S2x200x128_S1x200x128_1_0_0,
      k0_pay5 (sFirst m c) (iblk m c 1 t) (View.ld (zFirst m c) (Rect.unit (k0_off2 (grid0.coords t)) S200x128.size (k0_off2_inb (grid0.coords t))))⟩,
   ⟨Rect.unit ![0, 0, 0] S1x200x128.size inb_S2x200x128_S1x200x128_0_0_0,
      k0_pay4 (sFirst m c) (iblk m c 0 t) (View.ld (zFirst m c) (Rect.unit (k0_off1 (grid0.coords t)) S200x128.size (k0_off1_inb (grid0.coords t))))⟩]

/-- A later point: the scratch is read as the first point left it. -/
theorem outLater_eq (c : Dev nD) (t : Fin cfg0.N) (ht : t.val ≠ 0) : outLater m c t ht = View.canon (planesAt m c t) := by
  unfold outLater
  rw [View.read_writes_eq_canon _ _ _ (coverLaterO m c t ht)]
  unfold laterRun runLater
  dsimp only
  have eS : ∀ X : Vec F S10000x128 .f32, View.read (Elt F) (View.whole cc0_scratch0) ((Memref.isWhole_whole cc0_scratch0).unread X) = X :=
    fun X => (Memref.isWhole_whole cc0_scratch0).read_unread X
  have eZ : ∀ X : Vec F S10000x128 .f32, View.read (Elt F) (View.whole cc0_scratch1) ((Memref.isWhole_whole cc0_scratch1).unread X) = X :=
    fun X => (Memref.isWhole_whole cc0_scratch1).read_unread X
  rw [sKept_eq, zKept_eq]
  simp only [View.readAt_eq_ld, Memref.IsWhole.read_unread, eS, eZ, View.ld_unit_zero (S := S10000x128) hz2, View.ld_unit_zero (S := S200x10000) hz2]
  rfl

/-- The first point: the scratch is read back as just written. -/
theorem outFirst_eq (c : Dev nD) : outFirst m c = View.canon (planesAt m c t₀) := by
  unfold outFirst
  rw [View.read_writes_eq_canon _ _ _ (coverFirstO m c)]
  unfold firstRun runFirst
  dsimp only
  sl_unfold_words
  rw [View.readCov_unit_zero (S := S10000x128) _ hz2]
  simp only [View.readAt_eq_ld, Memref.IsWhole.read_unread, View.ld_unit_zero (S := S10000x128) hz2, View.ld_unit_zero (S := S128x128) hz2, View.ld_unit_zero (S := S200x10000) hz2]
  rw [View.read_writes_eq_canon _ _ _ (fun y => ⟨_, List.mem_singleton_self _, View.mem_set_unit_zero hz2 inb_S10000x128_S10000x128_0_0 y⟩), View.canon_unit_zero hz2]
  rfl

/-- The output block after any point. -/
theorem outAt_eq (c : Dev nD) (t : Fin cfg0.N) : outAt m c t = View.canon (planesAt m c t) := by
  by_cases ht : t.val = 0
  · obtain rfl : t = t₀ := Fin.ext ht
    rw [outAt_first m c t₀ rfl, outFirst_eq]
  · rw [outAt_later m c t ht, outLater_eq]

end Cert.KernelIdeal.HandValue

end
-- ==== Proof.KernelIdealBlocks.lean ====
/-
  Where the windows' blocks sit in their arrays, and where the body's two band loads sit in z.

  At point t the first adj window holds block (t, 0) of blocks of 200 rows — rows 200 t + y —, the second holds block
  (t + 25, 0) — rows 5000 + 200 t + y —, the windows of x, W and Wself hold block (0, 0), which is the whole array, and
  the output window's block is (0, t, 0) of blocks [2, 200, 128].  The body's two loads from z start at rows 200 t and
  5000 + 200 t.  A block's coordinate in its array is always block index × block size + the coordinate inside the
  block.
-/
import proofs.«112803_g56341380989462_cont_9to1_m_248_14_alg».proof.Proof.KernelIdealData
import Idealize.ShloMosaic.Lib.Pipeline.Value
import Idealize.ShloMosaic.Lib.ValueIdx

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]
variable (m : (ℓ : Loc nD τ sig) → Buf (Elt F) ℓ)

/-! ## The index maps and the band offsets, decided over the grid -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val + 25 ∧ win0_1.index t 1 = 0 :=
  (by decide +kernel : ∀ t : Fin grid0.N, win0_1.index t 0 = t.val + 25 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = t.val ∧ win0_5.index t 2 = 0 :=
  (by decide +kernel : ∀ t : Fin grid0.N, win0_5.index t 0 = 0 ∧ win0_5.index t 1 = t.val ∧ win0_5.index t 2 = 0)
theorem off1 : ∀ t : Fin cfg0.N, k0_off1 (grid0.coords t) 0 = 200 * t.val ∧ k0_off1 (grid0.coords t) 1 = 0 :=
  (by decide +kernel : ∀ t : Fin grid0.N, k0_off1 (grid0.coords t) 0 = 200 * t.val ∧ k0_off1 (grid0.coords t) 1 = 0)
theorem off2 : ∀ t : Fin cfg0.N, k0_off2 (grid0.coords t) 0 = 5000 + 200 * t.val ∧ k0_off2 (grid0.coords t) 1 = 0 :=
  (by decide +kernel : ∀ t : Fin grid0.N, k0_off2 (grid0.coords t) 0 = 5000 + 200 * t.val ∧ k0_off2 (grid0.coords t) 1 = 0)

/-! ## The blocks read at an index -/

/-- The first adj band at (y, k) is adj at row 200 t + y. -/
theorem iblk0_apply (c : Dev nD) (t : Fin cfg0.N) (y : Fin 200) (k : Fin 10000) (r : Fin 10000) (hr : r.val = 200 * t.val + y.val) :
    (iblk m c 0 t : Vec F S200x10000 .f32) (ix2 y k) = m ((c : Thread nD τ).loc main_arg1) (ix2 r k) := by
  unfold iblk
  rw [View.read_apply]
  show V m c main_arg1 _ = m (c.tc.loc main_arg1) _
  unfold V
  congr 1
  funext a
  apply Fin.ext
  match a with
  | ⟨0, _⟩ => show win0_0.index t 0 * 200 + 1 * y.val = r.val; rw [(idx0 t).1]; omega
  | ⟨1, _⟩ => show win0_0.index t 1 * 10000 + 1 * k.val = k.val; rw [(idx0 t).2]; omega

/-- The second adj band at (y, k) is adj at row 5000 + 200 t + y. -/
theorem iblk1_apply (c : Dev nD) (t : Fin cfg0.N) (y : Fin 200) (k : Fin 10000) (r : Fin 10000) (hr : r.val = 5000 + 200 * t.val + y.val) :
    (iblk m c 1 t : Vec F S200x10000 .f32) (ix2 y k) = m ((c : Thread nD τ).loc main_arg1) (ix2 r k) := by
  unfold iblk
  rw [View.read_apply]
  show V m c main_arg1 _ = m (c.tc.loc main_arg1) _
  unfold V
  congr 1
  funext a
  apply Fin.ext
  match a with
  | ⟨0, _⟩ => show win0_1.index t 0 * 200 + 1 * y.val = r.val; rw [(idx1 t).1]; omega
  | ⟨1, _⟩ => show win0_1.index t 1 * 10000 + 1 * k.val = k.val; rw [(idx1 t).2]; omega

/-- The resident block of x is x. -/
theorem iblk2_eq (c : Dev nD) (t : Fin cfg0.N) : (iblk m c 2 t : Vec F S10000x128 .f32) = m ((c : Thread nD τ).loc main_arg0) := by
  funext i
  unfold iblk
  rw [View.read_apply]
  show V m c main_arg0 _ = m (c.tc.loc main_arg0) _
  unfold V
  congr 1
  funext a
  apply Fin.ext
  match a with
  | ⟨0, _⟩ => show win0_2.index t 0 * 10000 + 1 * (i 0).val = (i 0).val; rw [(idx2 t).1]; omega
  | ⟨1, _⟩ => show win0_2.index t 1 * 128 + 1 * (i 1).val = (i 1).val; rw [(idx2 t).2]; omega

/-- The resident block of W is W. -/
theorem iblk3_eq (c : Dev nD) (t : Fin cfg0.N) : (iblk m c 3 t : Vec F S128x128 .f32) = m ((c : Thread nD τ).loc main_arg2) := by
  funext i
  unfold iblk
  rw [View.read_apply]
  show V m c main_arg2 _ = m (c.tc.loc main_arg2) _
  unfold V
  congr 1
  funext a
  apply Fin.ext
  match a with
  | ⟨0, _⟩ => show win0_3.index t 0 * 128 + 1 * (i 0).val = (i 0).val; rw [(idx3 t).1]; omega
  | ⟨1, _⟩ => show win0_3.index t 1 * 128 + 1 * (i 1).val = (i 1).val; rw [(idx3 t).2]; omega

/-- The resident block of Wself is Wself. -/
theorem iblk4_eq (c : Dev nD) (t : Fin cfg0.N) : (iblk m c 4 t : Vec F S128x128 .f32) = m ((c : Thread nD τ).loc main_arg3) := by
  funext i
  unfold iblk
  rw [View.read_apply]
  show V m c main_arg3 _ = m (c.tc.loc main_arg3) _
  unfold V
  congr 1
  funext a
  apply Fin.ext
  match a with
  | ⟨0, _⟩ => show win0_4.index t 0 * 128 + 1 * (i 0).val = (i 0).val; rw [(idx4 t).1]; omega
  | ⟨1, _⟩ => show win0_4.index t 1 * 128 + 1 * (i 1).val = (i 1).val; rw [(idx4 t).2]; omega

end Cert.KernelIdeal.HandValue

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.Spec.lean ====
/-
  One graph-convolution layer with a self loop, as a function of its four argument arrays, index by index on
  the extended reals:

      out[r, j] = max ( Σ_k adj[r, k] · s[k, j]  +  ( s[r, j] + Σ_d x[r, d] · Wself[d, j] ) ,  0 ),
      s[k, j]   = Σ_d x[k, d] · W[d, j]                                   (the support x · W).

  This is the arrangement in which the self loop's contribution s[r, j] is added once to the row, instead of
  being carried through the neighbourhood sum by an identity matrix added to adj.  The two arrangements agree
  when every entry is a real number (the identity's row picks out s[r, j], and the product distributes over
  the sum adj[r, k] + δ[r, k]); on the extended reals distributivity can fail at infinities, which is why the
  comparison with the other arrangement is made under finiteness of the inputs.
-/
import Idealize.ShloMosaic.PureOps.Ideal
import Idealize.ShloMosaic.Lib.ValueIdx

noncomputable section

namespace GraphConv

open Idealize.ShloMosaic Idealize.ShloMosaic.ValueIdx

/-- Node features and the layer's result: 10000 nodes, 128 channels. -/
abbrev SNodes : Shape := ⟨2, ![10000, 128]⟩
/-- The dense adjacency: 10000 by 10000. -/
abbrev SAdj : Shape := ⟨2, ![10000, 10000]⟩
/-- A weight matrix: 128 by 128. -/
abbrev SWeight : Shape := ⟨2, ![128, 128]⟩

/-- The support x · W at node `k`, channel `j`. -/
def support (x : SNodes.Idx → EReal) (W : SWeight.Idx → EReal) (k : Fin 10000) (j : Fin 128) : EReal :=
  ∑ d : Fin 128, x (ix2 k d) * W (ix2 d j)

/-- Row `r` of adj against column `j` of the support: the neighbourhood sum. -/
def neighbours (x : SNodes.Idx → EReal) (adj : SAdj.Idx → EReal) (W : SWeight.Idx → EReal) (r : Fin 10000) (j : Fin 128) : EReal :=
  ∑ k : Fin 10000, adj (ix2 r k) * support x W k j

/-- The layer's result at node `r`, channel `j`: the neighbourhood sum, plus the node's own support and its
    self-weight term, clamped below at zero. -/
def layerAt (x : SNodes.Idx → EReal) (adj : SAdj.Idx → EReal) (W Wself : SWeight.Idx → EReal) (r : Fin 10000) (j : Fin 128) : EReal :=
  max (neighbours x adj W r j + (support x W r j + support x Wself r j)) 0

/-- The layer's result as one array. -/
def layer (x : SNodes.Idx → EReal) (adj : SAdj.Idx → EReal) (W Wself : SWeight.Idx → EReal) : SNodes.Idx → EReal :=
  fun i => layerAt x adj W Wself (i 0) (i 1)

theorem layer_ix2 (x : SNodes.Idx → EReal) (adj : SAdj.Idx → EReal) (W Wself : SWeight.Idx → EReal) (r : Fin 10000) (j : Fin 128) :
    layer x adj W Wself (ix2 r j) = layerAt x adj W Wself r j := rfl

end GraphConv

end
-- ==== Proof.KernelIdealPayload.lean ====
/-
  The body's arithmetic, read at an index.

  The body forms three products on the matrix unit, each started from the zero splat: x · W and x · Wself at the
  first point, and a row band of adj against the support at every point.  Read at an entry, each is the sum over the
  contracted coordinate of the products of the two operands' entries.  From these: the stored support is
  GraphConv.support, the stored z is the sum of the two supports, and a plane of the output block at (0, y, j) is the
  band's row y against column j of the support, plus z's band at (y, j), clamped below at zero.
-/
import proofs.«112803_g56341380989462_cont_9to1_m_248_14_alg».proof.Proof.Gen.KernelIdeal.Skeleton
import proofs.«112803_g56341380989462_cont_9to1_m_248_14_alg».proof.Proof.LibDotInner
import proofs.«112803_g56341380989462_cont_9to1_m_248_14_alg».proof.Proof.Spec
import Idealize.ShloMosaic.Lib.Pipeline.Value
import Idealize.ShloMosaic.Lib.ValueIdx

noncomputable section

open scoped BigOperators

namespace Cert.KernelIdeal.HandValue

open Cert.KernelIdeal Cert.KernelIdeal.Gen
open Idealize.ShloMosaic Idealize.ShloMosaic.ValueIdx

/-! ## Which operand coordinate is which, for the two products' dimension numbers -/

theorem lhsW_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsW_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhsW_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhsW_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

theorem lhsA_0 (i : S200x128.Idx) (q : dot_S200x10000_S10000x128_S200x128_1_0_0_1_n_n.contr.Idx) : (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem lhsA_1 (i : S200x128.Idx) (q : dot_S200x10000_S10000x128_S200x128_1_0_0_1_n_n.contr.Idx) : (dot_S200x10000_S10000x128_S200x128_1_0_0_1_n_n.lhsIdx i q 1).val = (q ⟨0, by decide⟩).val :=
  dot_S200x10000_S10000x128_S200x128_1_0_0_1_n_n.lhsIdx_val_of_single rfl i q
theorem rhsA_0 (i : S200x128.Idx) (q : dot_S200x10000_S10000x128_S200x128_1_0_0_1_n_n.contr.Idx) : (dot_S200x10000_S10000x128_S200x128_1_0_0_1_n_n.rhsIdx i q 0).val = (q ⟨0, by decide⟩).val :=
  dot_S200x10000_S10000x128_S200x128_1_0_0_1_n_n.rhsIdx_val_of_single rfl i q
theorem rhsA_1 (i : S200x128.Idx) (q : dot_S200x10000_S10000x128_S200x128_1_0_0_1_n_n.contr.Idx) : (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-! ## The support and z -/

/-- x · W at node `k`, channel `j`. -/
theorem pay1_apply (x : Vec Ideal S10000x128 .f32) (W : Vec Ideal S128x128 .f32) (k : Fin 10000) (j : Fin 128) :
    k0_pay1 (F := Ideal) x W (ix2 k j) = GraphConv.support x W k j := by
  unfold k0_pay1
  exact DotInner.matmul_zero_apply dot_S10000x128_S128x128_S10000x128_1_0_0_1_n_n rfl rfl lhsW_0 lhsW_1 rhsW_0 rhsW_1 none x W k j

theorem pay2_eq (x : Vec Ideal S10000x128 .f32) (W : Vec Ideal S128x128 .f32) : k0_pay2 (F := Ideal) x W = k0_pay1 (F := Ideal) x W := by
  unfold k0_pay2
  exact shapeCast_self _ _

/-- The stored support. -/
theorem pay2_apply (x : Vec Ideal S10000x128 .f32) (W : Vec Ideal S128x128 .f32) (k : Fin 10000) (j : Fin 128) :
    k0_pay2 (F := Ideal) x W (ix2 k j) = GraphConv.support x W k j := by
  rw [pay2_eq, pay1_apply]

theorem pay3_eq (x : Vec Ideal S10000x128 .f32) (W Ws : Vec Ideal S128x128 .f32) :
    k0_pay3 (F := Ideal) x W Ws = addf (k0_pay1 (F := Ideal) x W) (k0_pay1 (F := Ideal) x Ws) := by
  unfold k0_pay3
  exact shapeCast_self _ _

/-- The stored z: the support plus the self-weight term. -/
theorem pay3_apply (x : Vec Ideal S10000x128 .f32) (W Ws : Vec Ideal S128x128 .f32) (k : Fin 10000) (j : Fin 128) :
    k0_pay3 (F := Ideal) x W Ws (ix2 k j) = GraphConv.support x W k j + GraphConv.support x Ws k j := by
  rw [pay3_eq, addf_apply, pay1_apply, pay1_apply]

/-! ## A plane of the output block -/

/-- A [200, 128] value stored as a [1, 200, 128] plane reads (0, y, j) at (y, j). -/
theorem plane_ix3 {α : Type} (v : S200x128.Idx → α) (hc : S200x128.ShapeCasts S1x200x128) (h : Fin 1) (y : Fin 200) (j : Fin 128) :
    shapeCast S1x200x128 v hc (ix3 h y j) = v (ix2 y j) := by
  refine shapeCast_apply v hc _ _ ?_
  rw [Shape.rowMajor_val_two, Shape.rowMajor_val_three]
  show y.val * 128 + j.val = (h.val * 200 + y.val) * 128 + j.val
  have := h.isLt
  omega

/-- The band's product with the support, plus z's band, clamped below at zero. -/
theorem band_apply (s : FVec Ideal S10000x128 .f32) (a : FVec Ideal S200x10000 .f32) (z : FVec Ideal S200x128 .f32)
    (y : Fin 200) (j : Fin 128) :
    maximumf (addf (matmul dot_S200x10000_S10000x128_S200x128_1_0_0_1_n_n none a s (constant (F := Ideal) S200x128 .f32 0x00000000#32)) z)
        (broadcast S200x128 (Scalar.ofBits (F := Ideal) .f32 0x00000000#32)) (ix2 y j)
      = max ((∑ k : Fin 10000, a (ix2 y k) * s (ix2 k j)) + z (ix2 y j)) 0 := by
  rw [maximumf_apply, addf_apply, broadcast_apply]
  rw [show matmul dot_S200x10000_S10000x128_S200x128_1_0_0_1_n_n none a s (constant (F := Ideal) S200x128 .f32 0x00000000#32) (ix2 y j)
      = ∑ k : Fin 10000, a (ix2 y k) * s (ix2 k j) from
    DotInner.matmul_zero_apply dot_S200x10000_S10000x128_S200x128_1_0_0_1_n_n rfl rfl lhsA_0 lhsA_1 rhsA_0 rhsA_1 none a s y j]
  rw [show Scalar.ofBits (F := Ideal) .f32 0x00000000#32 = (0 : EReal) from Ideal.ofBits_zero_f32]

/-- Plane 0's payload at (0, y, j). -/
theorem pay4_apply (s : Vec Ideal S10000x128 .f32) (a : Vec Ideal S200x10000 .f32) (z : Vec Ideal S200x128 .f32)
    (h : Fin 1) (y : Fin 200) (j : Fin 128) :
    k0_pay4 (F := Ideal) s a z (ix3 h y j) = max ((∑ k : Fin 10000, a (ix2 y k) * s (ix2 k j)) + z (ix2 y j)) 0 := by
  unfold k0_pay4
  exact (plane_ix3 _ _ h y j).trans (band_apply s a z y j)

/-- Plane 1's payload at (0, y, j). -/
theorem pay5_apply (s : Vec Ideal S10000x128 .f32) (b : Vec Ideal S200x10000 .f32) (z : Vec Ideal S200x128 .f32)
    (h : Fin 1) (y : Fin 200) (j : Fin 128) :
    k0_pay5 (F := Ideal) s b z (ix3 h y j) = max ((∑ k : Fin 10000, b (ix2 y k) * s (ix2 k j)) + z (ix2 y j)) 0 := by
  unfold k0_pay5
  exact (plane_ix3 _ _ h y j).trans (band_apply s b z y j)

end Cert.KernelIdeal.HandValue

end
-- ==== Proof.KernelIdealArray.lean ====
/-
  The kernel's result array, and the layer.

  Point t's output block holds, at (h, y, j), the layer at node 5000 h + 200 t + y and channel j: plane h is the adj
  band of rows 5000 h + 200 t + y against the support, plus z at those rows, clamped at zero — and z is the support plus
  the self-weight term, so this is the layer's own arrangement.  The block is block (0, t, 0) of the [2, 5000, 128]
  result array, so the array ends holding the layer at node 5000 h + r' at (h, r', j): the point covering row r' is
  r' / 200.  The reshape after the region reads (h, r', j) at row 5000 h + r' of the [10000, 128] result.
-/
import proofs.«112803_g56341380989462_cont_9to1_m_248_14_alg».proof.Proof.KernelIdealPieces
import proofs.«112803_g56341380989462_cont_9to1_m_248_14_alg».proof.Proof.KernelIdealBlocks
import proofs.«112803_g56341380989462_cont_9to1_m_248_14_alg».proof.Proof.KernelIdealPayload
import proofs.«112803_g56341380989462_cont_9to1_m_248_14_alg».proof.Proof.Spec
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.SL.Sem
open Idealize.ShloMosaic.Pipeline (Dat)

open GraphConv (layerAt support neighbours)

variable (m : (ℓ : Loc nD τ sig) → Buf (Elt Ideal) ℓ)

/-! ## The four argument arrays -/

abbrev aX (c : Dev nD) : GraphConv.SNodes.Idx → EReal := m ((c : Thread nD τ).loc main_arg0)
abbrev aAdj (c : Dev nD) : GraphConv.SAdj.Idx → EReal := m ((c : Thread nD τ).loc main_arg1)
abbrev aW (c : Dev nD) : GraphConv.SWeight.Idx → EReal := m ((c : Thread nD τ).loc main_arg2)
abbrev aWs (c : Dev nD) : GraphConv.SWeight.Idx → EReal := m ((c : Thread nD τ).loc main_arg3)

/-! ## The stored support and z at an index -/

theorem sFirst_apply (c : Dev nD) (k : Fin 10000) (j : Fin 128) :
    sFirst m c (ix2 k j) = support (aX m c) (aW m c) k j := by
  unfold sFirst
  rw [iblk2_eq m c t₀, iblk3_eq m c t₀]
  exact pay2_apply _ _ k j

theorem zFirst_apply (c : Dev nD) (k : Fin 10000) (j : Fin 128) :
    zFirst m c (ix2 k j) = support (aX m c) (aW m c) k j + support (aX m c) (aWs m c) k j := by
  unfold zFirst
  rw [iblk2_eq m c t₀, iblk3_eq m c t₀, iblk4_eq m c t₀]
  exact pay3_apply _ _ _ k j

/-! ## A point's output block -/

/-- The node whose row sits at (h, y) of point t's block. -/
def rowAt (t : Fin cfg0.N) (h : Fin 2) (y : Fin 200) : Fin 10000 :=
  ⟨5000 * h.val + 200 * t.val + y.val, by have := t.isLt; have hN : cfg0.N = 25 := N_0; have := h.isLt; have := y.isLt; omega⟩

/-- Point t's output block as a function of the argument arrays. -/
def Gblk (c : Dev nD) (t : Fin cfg0.N) : S2x200x128.Idx → EReal :=
  fun j => layerAt (aX m c) (aAdj m c) (aW m c) (aWs m c) (rowAt t (j 0) (j 1)) (j 2)

/-- One plane's value: the band against the support, plus z's band, clamped at zero, is the layer at the band's node. -/
theorem plane_value (c : Dev nD) (y : Fin 200) (j : Fin 128) (band : Vec Ideal S200x10000 .f32) (zb : Vec Ideal S200x128 .f32) (r : Fin 10000)
    (hband : ∀ k, band (ix2 y k) = aAdj m c (ix2 r k)) (hz : zb (ix2 y j) = zFirst m c (ix2 r j)) :
    max ((∑ k : Fin 10000, band (ix2 y k) * sFirst m c (ix2 k j)) + zb (ix2 y j)) 0
      = layerAt (aX m c) (aAdj m c) (aW m c) (aWs m c) r j := by
  rw [hz, zFirst_apply, Finset.sum_congr rfl fun k _ => by rw [hband k, sFirst_apply]]
  rfl

theorem plane1_value (c : Dev nD) (t : Fin cfg0.N) (h : Fin 1) (y : Fin 200) (j : Fin 128) :
    k0_pay5 (F := Ideal) (sFirst m c) (iblk m c 1 t) (View.ld (zFirst m c) (Rect.unit (k0_off2 (grid0.coords t)) S200x128.size (k0_off2_inb (grid0.coords t)))) (ix3 h y j)
      = Gblk m c t ((Rect.unit (s := S2x200x128) ![1, 0, 0] S1x200x128.size inb_S2x200x128_S1x200x128_1_0_0).emb (ix3 h y j)) := by
  refine (pay5_apply (sFirst m c) (iblk m c 1 t) (View.ld (zFirst m c) (Rect.unit (k0_off2 (grid0.coords t)) S200x128.size (k0_off2_inb (grid0.coords t)))) h y j).trans ?_
  have hN : cfg0.N = 25 := N_0
  have ht := t.isLt
  have hh := h.isLt
  have hy := y.isLt
  obtain ⟨o0, o1⟩ := off2 t
  have hr : 5000 + 200 * t.val + y.val < 10000 := by omega
  refine (plane_value m c y j (iblk m c 1 t) _ ⟨5000 + 200 * t.val + y.val, hr⟩ (fun k => iblk1_apply m c t y k _ rfl) ?_).trans ?_
  · show zFirst m c ((Rect.unit (s := S10000x128) (k0_off2 (grid0.coords t)) S200x128.size (k0_off2_inb (grid0.coords t))).emb (ix2 y j)) = _
    congr 1
    funext a
    apply Fin.ext
    match a with
    | ⟨0, _⟩ => show k0_off2 (grid0.coords t) 0 + 1 * y.val = 5000 + 200 * t.val + y.val; rw [o0]; omega
    | ⟨1, _⟩ => show k0_off2 (grid0.coords t) 1 + 1 * j.val = j.val; rw [o1]; omega
  · unfold Gblk
    congr 1
    · apply Fin.ext
      show 5000 + 200 * t.val + y.val = 5000 * (1 + 1 * h.val) + 200 * t.val + (0 + 1 * y.val)
      omega
    · apply Fin.ext
      show j.val = 0 + 1 * j.val
      omega

theorem plane0_value (c : Dev nD) (t : Fin cfg0.N) (h : Fin 1) (y : Fin 200) (j : Fin 128) :
    k0_pay4 (F := Ideal) (sFirst m c) (iblk m c 0 t) (View.ld (zFirst m c) (Rect.unit (k0_off1 (grid0.coords t)) S200x128.size (k0_off1_inb (grid0.coords t)))) (ix3 h y j)
      = Gblk m c t ((Rect.unit (s := S2x200x128) ![0, 0, 0] S1x200x128.size inb_S2x200x128_S1x200x128_0_0_0).emb (ix3 h y j)) := by
  refine (pay4_apply (sFirst m c) (iblk m c 0 t) (View.ld (zFirst m c) (Rect.unit (k0_off1 (grid0.coords t)) S200x128.size (k0_off1_inb (grid0.coords t)))) h y j).trans ?_
  have hN : cfg0.N = 25 := N_0
  have ht := t.isLt
  have hh := h.isLt
  have hy := y.isLt
  obtain ⟨o0, o1⟩ := off1 t
  have hr : 200 * t.val + y.val < 10000 := by omega
  refine (plane_value m c y j (iblk m c 0 t) _ ⟨200 * t.val + y.val, hr⟩ (fun k => iblk0_apply m c t y k _ rfl) ?_).trans ?_
  · show zFirst m c ((Rect.unit (s := S10000x128) (k0_off1 (grid0.coords t)) S200x128.size (k0_off1_inb (grid0.coords t))).emb (ix2 y j)) = _
    congr 1
    funext a
    apply Fin.ext
    match a with
    | ⟨0, _⟩ => show k0_off1 (grid0.coords t) 0 + 1 * y.val = 200 * t.val + y.val; rw [o0]; omega
    | ⟨1, _⟩ => show k0_off1 (grid0.coords t) 1 + 1 * j.val = j.val; rw [o1]; omega
  · unfold Gblk
    congr 1
    · apply Fin.ext
      show 200 * t.val + y.val = 5000 * (0 + 1 * h.val) + 200 * t.val + (0 + 1 * y.val)
      omega
    · apply Fin.ext
      show j.val = 0 + 1 * j.val
      omega

/-- Both planes agree with the block function. -/
theorem planes_agree (c : Dev nD) (t : Fin cfg0.N) :
    ∀ p ∈ planesAt m c t, ∀ x : p.1.shape.Idx, p.2 x = Gblk m c t (p.1.emb x) := by
  intro p hp
  unfold planesAt at hp
  rcases List.mem_cons.1 hp with rfl | hp
  · intro x
    obtain ⟨h, y, j, rfl⟩ : ∃ (h : Fin 1) (y : Fin 200) (j : Fin 128), x = ix3 h y j := ⟨x 0, x 1, x 2, eq_ix3 x⟩
    exact plane1_value m c t h y j
  · rcases List.mem_cons.1 hp with rfl | hp
    · intro x
      obtain ⟨h, y, j, rfl⟩ : ∃ (h : Fin 1) (y : Fin 200) (j : Fin 128), x = ix3 h y j := ⟨x 0, x 1, x 2, eq_ix3 x⟩
      exact plane0_value m c t h y j
    · cases hp

/-- The two planes tile the block. -/
theorem planes_cover (c : Dev nD) (t : Fin cfg0.N) (y : S2x200x128.Idx) : ∃ p ∈ planesAt m c t, y ∈ p.1.set :=
  View.cover_of_tiledL (planesAt m c t) S1x200x128.size (by rfl) y

/-- The output block after point t, at an index. -/
theorem outAt_apply (c : Dev nD) (t : Fin cfg0.N) (j : S2x200x128.Idx) : outAt m c t j = Gblk m c t j := by
  rw [outAt_eq]
  exact View.canon_apply_of_pieces (Gblk m c t) (planesAt m c t) (planes_agree m c t) j (planes_cover m c t j)

/-! ## The result array -/

/-- The node at (h, r') of the result array. -/
def rowOf (h : Fin 2) (r : Fin 5000) : Fin 10000 := ⟨5000 * h.val + r.val, by have := h.isLt; have := r.isLt; omega⟩

/-- The result array as a function of the argument arrays: the layer at node 5000 h + r', channel j. -/
def GoutFn (c : Dev nD) : S2x5000x128.Idx → EReal :=
  fun i => layerAt (aX m c) (aAdj m c) (aW m c) (aWs m c) (rowOf (i 0) (i 1)) (i 2)

def Gout (c : Dev nD) : Buf (Elt Ideal) ((cfg0.win 5).arr.view.loc (c.tc : Thread nD τ)) := GoutFn m c

/-- What point t writes back is block t of the result. -/
theorem flushed_eq (c : Dev nD) (t : Fin cfg0.N) :
    (dats (F := Ideal) m 0 c).flushed 5 t = ((cfg0.win 5).blk t).view.read (Elt Ideal) (Gout m c) := by
  show (cfg0.win 5).cut (grid0.coords t) ((dats m 0 c).after 5 t) = _
  rw [after5]
  funext j
  show outAt m c t j = GoutFn m c (((cfg0.win 5).blk t).view.emb j)
  refine (outAt_apply m c t j).trans ?_
  obtain ⟨i0, i1, i2⟩ := idx5 t
  have h0 : (j 0).val < 2 := (j 0).isLt
  have h1 : (j 1).val < 200 := (j 1).isLt
  have h2 : (j 2).val < 128 := (j 2).isLt
  unfold Gblk GoutFn
  congr 1
  · apply Fin.ext
    show 5000 * (j 0).val + 200 * t.val + (j 1).val = 5000 * (win0_5.index t 0 * 2 + 1 * (j 0).val) + (win0_5.index t 1 * 200 + 1 * (j 1).val)
    rw [i0, i1]; omega
  · apply Fin.ext
    show (j 2).val = win0_5.index t 2 * 128 + 1 * (j 2).val
    rw [i2]; omega

/-- An index of the result array is in point t's block iff each coordinate is in the block's range. -/
theorem mem_blk5 (t : Fin cfg0.N) (i : S2x5000x128.Idx) :
    i ∈ ((cfg0.win 5).blk t).view.set ↔ ∀ a : Fin 3, win0_5.index t a * S2x200x128.size a ≤ (i a).val ∧ (i a).val < win0_5.index t a * S2x200x128.size a + S2x200x128.size a := by
  show i ∈ ((View.whole main_call0_v0).slice (win0_5.rect t)).set ↔ _
  rw [View.set_slice_whole, Rect.mem_set_unit]
  exact Iff.rfl

/-- Every index of the result array is in the block of the point r' / 200. -/
theorem cover5 (i : S2x5000x128.Idx) : ∃ t : Fin cfg0.N, (cfg0.win 5).flush t = true ∧ i ∈ ((cfg0.win 5).blk t).view.set := by
  have h0 : (i 0).val < 2 := (i 0).isLt
  have h1 : (i 1).val < 5000 := (i 1).isLt
  have h2 : (i 2).val < 128 := (i 2).isLt
  have hN : cfg0.N = 25 := N_0
  obtain ⟨t, ht⟩ : ∃ t : Fin cfg0.N, t.val = (i 1).val / 200 := ⟨⟨(i 1).val / 200, by omega⟩, rfl⟩
  refine ⟨t, flush0_5 t, ?_⟩
  rw [mem_blk5]
  obtain ⟨e0, e1, e2⟩ := idx5 t
  intro a
  match a with
  | ⟨0, _⟩ => show win0_5.index t 0 * 2 ≤ (i 0).val ∧ (i 0).val < win0_5.index t 0 * 2 + 2; rw [e0]; omega
  | ⟨1, _⟩ => show win0_5.index t 1 * 200 ≤ (i 1).val ∧ (i 1).val < win0_5.index t 1 * 200 + 200; rw [e1]; omega
  | ⟨2, _⟩ => show win0_5.index t 2 * 128 ≤ (i 2).val ∧ (i 2).val < win0_5.index t 2 * 128 + 128; rw [e2]; omega

/-- The result array after the run is the layer at node 5000 h + r'. -/
theorem final_array (c : Dev nD) : (dats (F := Ideal) m 0 c).arrAt 5 cfg0.N = Gout m c :=
  (dats (F := Ideal) m 0 c).arrAt_eq_of_cover 5 (Gout m c) (fun t _ => flushed_eq m c t) cover5

/-! ## The reshape after the region -/

theorem tail_layer (c : Dev nD) (W : Valuation τ sig (Elt Ideal)) (hW : W (Proc.devRef .tc main_call0_v0) = Gout m c) :
    StableHlo.after (Cert.KernelIdeal.Gen.hostOps1 (F := Ideal)) W (Proc.devRef .tc main_v0)
      = GraphConv.layer (m ((c : Thread nD τ).loc main_arg0)) (m ((c : Thread nD τ).loc main_arg1)) (m ((c : Thread nD τ).loc main_arg2)) (m ((c : Thread nD τ).loc main_arg3)) := by
  after_results
  funext i
  obtain ⟨r, j, rfl⟩ : ∃ (r : Fin 10000) (j : Fin 128), i = ix2 r j := ⟨i 0, i 1, eq_ix2 i⟩
  show shapeCast S10000x128 (W (Proc.devRef .tc main_call0_v0)) _ (ix2 r j) = _
  have hr := r.isLt
  have hq : r.val / 5000 < 2 := by omega
  have hm : r.val % 5000 < 5000 := by omega
  refine (shapeCast_apply (s := S2x5000x128) (t := S10000x128) _ _ (ix2 r j) (ix3 (⟨r.val / 5000, hq⟩ : Fin 2) (⟨r.val % 5000, hm⟩ : Fin 5000) j) ?_).trans ?_
  · rw [Shape.rowMajor_val_three, Shape.rowMajor_val_two]
    show (r.val / 5000 * 5000 + r.val % 5000) * 128 + j.val = r.val * 128 + j.val
    omega
  · refine (congrFun hW _).trans ?_
    show GoutFn m c (ix3 (⟨r.val / 5000, hq⟩ : Fin 2) (⟨r.val % 5000, hm⟩ : Fin 5000) j) = layerAt _ _ _ _ r j
    unfold GoutFn
    congr 1
    apply Fin.ext
    show 5000 * (r.val / 5000) + r.val % 5000 = r.val
    omega

end Cert.KernelIdeal.HandValue

end
-- ==== Proof.SelfLoopLaw.lean ====
/-
  The self loop as an identity matrix: the law that lets a row of (adj + I) against a column of the support be read
  as the neighbourhood sum plus the node's own support.

  For real numbers, Σ_k (a_k + δ_{r k}) · s_k = Σ_k a_k · s_k + s_r : the product distributes over a_k + δ_{r k},
  and Σ_k δ_{r k} · s_k picks out the one term k = r.  On the extended reals the product distributes over a sum
  only away from the infinities, so the law is stated for families whose every entry is a real number; a finite
  sum of products of reals is again a real, which gives the hypothesis for the support x · W.
-/
import proofs.«112803_g56341380989462_cont_9to1_m_248_14_alg».proof.Proof.Spec

noncomputable section

open scoped BigOperators

namespace GraphConv

open Idealize.ShloMosaic Idealize.ShloMosaic.ValueIdx

/-- The inclusion of the reals in the extended reals commutes with finite sums. -/
theorem coe_finsum {ι : Type} (t : Finset ι) (f : ι → ℝ) :
    ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A finite sum of products of real numbers is a real number. -/
theorem sum_mul_real {ι : Type} [Fintype ι] (f g : ι → EReal)
    (hf : ∀ d, ∃ t : ℝ, f d = (t : EReal)) (hg : ∀ d, ∃ t : ℝ, g d = (t : EReal)) :
    ∃ t : ℝ, ∑ d, f d * g d = (t : EReal) := by
  choose f' hf using hf
  choose g' hg using hg
  refine ⟨∑ d, f' d * g' d, ?_⟩
  rw [coe_finsum]
  refine Finset.sum_congr rfl fun d _ => ?_
  rw [hf d, hg d, EReal.coe_mul]

/-- Σ_k (a_k + δ_{r k}) · s_k = Σ_k a_k · s_k + s_r, for real a and s. -/
theorem sum_add_delta_mul {n : ℕ} (a s : Fin n → EReal) (r : Fin n)
    (ha : ∀ k, ∃ t : ℝ, a k = (t : EReal)) (hs : ∀ k, ∃ t : ℝ, s k = (t : EReal)) :
    ∑ k, (a k + (if r = k then (1 : EReal) else 0)) * s k = ∑ k, a k * s k + s r := by
  choose a' ha using ha
  choose s' hs using hs
  have hterm : ∀ k, (a k + (if r = k then (1 : EReal) else 0)) * s k = a k * s k + (if r = k then s k else 0) := by
    intro k
    rw [ha k, hs k]
    by_cases hk : r = k
    · rw [if_pos hk, if_pos hk]
      exact_mod_cast (by ring : (a' k + 1) * s' k = a' k * s' k + s' k)
    · rw [if_neg hk, if_neg hk, add_zero, add_zero]
  rw [Finset.sum_congr rfl fun k _ => hterm k, Finset.sum_add_distrib, Finset.sum_ite_eq Finset.univ r s, if_pos (Finset.mem_univ r)]

/-- The support x · W of real inputs is real at every node and channel. -/
theorem support_real (x : SNodes.Idx → EReal) (W : SWeight.Idx → EReal)
    (hx : ∀ i, ∃ t : ℝ, x i = (t : EReal)) (hW : ∀ i, ∃ t : ℝ, W i = (t : EReal)) (k : Fin 10000) (j : Fin 128) :
    ∃ t : ℝ, support x W k j = (t : EReal) :=
  sum_mul_real (fun d => x (ix2 k d)) (fun d => W (ix2 d j)) (fun d => hx _) (fun d => hW _)

/-- Row `r` of adj + I against column `j` of the support is the neighbourhood sum plus the node's own support. -/
theorem selfLoop_row (x : SNodes.Idx → EReal) (adj : SAdj.Idx → EReal) (W : SWeight.Idx → EReal)
    (hx : ∀ i, ∃ t : ℝ, x i = (t : EReal)) (hadj : ∀ i, ∃ t : ℝ, adj i = (t : EReal)) (hW : ∀ i, ∃ t : ℝ, W i = (t : EReal))
    (r : Fin 10000) (j : Fin 128) :
    ∑ k : Fin 10000, (adj (ix2 r k) + (if r = k then (1 : EReal) else 0)) * support x W k j
      = neighbours x adj W r j + support x W r j :=
  sum_add_delta_mul (fun k => adj (ix2 r k)) (fun k => support x W k j) r (fun k => hadj _) (fun k => support_real x W hx hW k j)

end GraphConv

end
-- ==== Proof.RefLayer.lean ====
/-
  The reference's result, index by index, is the layer of Spec.lean.

  The reference multiplies the matrix adj + I into the support x · W, where the identity matrix I is written as the
  comparison "row coordinate + 0 = column coordinate" of two iota arrays, converted to a number: its entry at
  (r, k) is 1 when r = k and 0 otherwise (both coordinates are below 10000, far below 2^32, so the 32-bit words
  are equal exactly when the coordinates are).  Row r of adj + I against column j of the support is then, for real
  inputs, the neighbourhood sum plus the node's own support (SelfLoopLaw.lean); adding the self-weight term and
  clamping at zero gives the layer.
-/
import proofs.«112803_g56341380989462_cont_9to1_m_248_14_alg».proof.Proof.Gen.ReferenceIdeal.Read
import proofs.«112803_g56341380989462_cont_9to1_m_248_14_alg».proof.Proof.Spec
import proofs.«112803_g56341380989462_cont_9to1_m_248_14_alg».proof.Proof.SelfLoopLaw

noncomputable section

open scoped BigOperators

namespace Cert.ReferenceIdeal.RefValue

open Cert.ReferenceIdeal Idealize.ShloMosaic Idealize.ShloMosaic.ValueIdx

/-! ## The index maps of the three products, at coordinates -/

theorem lidx_v0_ix2 (k : Fin 10000) (j d : Fin 128) : Read.lidx_main_v0 (ix2 k j) d = ix2 k d :=
  funext fun a => Fin.ext (by match a with | ⟨0, _⟩ => rfl | ⟨1, _⟩ => rfl)
theorem ridx_v0_ix2 (k : Fin 10000) (j d : Fin 128) : Read.ridx_main_v0 (ix2 k j) d = ix2 d j :=
  funext fun a => Fin.ext (by match a with | ⟨0, _⟩ => rfl | ⟨1, _⟩ => rfl)
theorem lidx_v9_ix2 (k : Fin 10000) (j d : Fin 128) : Read.lidx_main_v9 (ix2 k j) d = ix2 k d :=
  funext fun a => Fin.ext (by match a with | ⟨0, _⟩ => rfl | ⟨1, _⟩ => rfl)
theorem ridx_v9_ix2 (k : Fin 10000) (j d : Fin 128) : Read.ridx_main_v9 (ix2 k j) d = ix2 d j :=
  funext fun a => Fin.ext (by match a with | ⟨0, _⟩ => rfl | ⟨1, _⟩ => rfl)
theorem lidx_v8_ix2 (r : Fin 10000) (j : Fin 128) (k : Fin 10000) : Read.lidx_main_v8 (ix2 r j) k = ix2 r k :=
  funext fun a => Fin.ext (by match a with | ⟨0, _⟩ => rfl | ⟨1, _⟩ => rfl)
theorem ridx_v8_ix2 (r : Fin 10000) (j : Fin 128) (k : Fin 10000) : Read.ridx_main_v8 (ix2 r j) k = ix2 k j :=
  funext fun a => Fin.ext (by match a with | ⟨0, _⟩ => rfl | ⟨1, _⟩ => rfl)

/-! ## The two weight products are supports -/

/-- x · W at node `k`, channel `j`. -/
theorem support_eq (x : FVec Ideal S10000x128 .f32) (W : FVec Ideal S128x128 .f32) (k : Fin 10000) (j : Fin 128) :
    Read.val_main_v0 (F := Ideal) x W (ix2 k j) = GraphConv.support x W k j := by
  rw [Read.val_main_v0_apply]
  refine Finset.sum_congr rfl fun d _ => ?_
  rw [lidx_v0_ix2, ridx_v0_ix2]

/-- x · Wself at node `k`, channel `j`. -/
theorem selfSupport_eq (x : FVec Ideal S10000x128 .f32) (Ws : FVec Ideal S128x128 .f32) (k : Fin 10000) (j : Fin 128) :
    Read.val_main_v9 (F := Ideal) x Ws (ix2 k j) = GraphConv.support x Ws k j := by
  rw [Read.val_main_v9_apply]
  refine Finset.sum_congr rfl fun d _ => ?_
  rw [lidx_v9_ix2, ridx_v9_ix2]

/-! ## The identity matrix -/

/-- Two coordinates below 10000 give equal 32-bit words (the first with the zero word added) exactly when they are
    equal: both are below 2^32, where a natural number is determined by its word. -/
theorem word_eq_iff (r k : Fin 10000) :
    IntOp.addi (BitVec.ofNat 32 r.val) 0#32 = BitVec.ofNat 32 k.val ↔ r = k := by
  constructor
  · intro e
    have e' := congrArg BitVec.toNat e
    simp only [IntOp.addi, BitVec.add_zero, BitVec.toNat_ofNat, Nat.reducePow] at e'
    have hr := r.isLt
    have hk := k.isLt
    exact Fin.ext (by omega)
  · rintro rfl
    simp only [IntOp.addi, BitVec.add_zero]

/-- The entry of the identity matrix at row `r`, column `k`: 1 on the diagonal, 0 off it. -/
theorem eye_entry (r k : Fin 10000) :
    Read.val_main_v6 (F := Ideal) (ix2 r k) = if r = k then (1 : EReal) else 0 := by
  rw [Read.val_main_v6_apply, Read.val_main_v5_apply, Read.val_main_v4_apply, Read.val_main_v3_apply, Read.val_main_c_apply,
    Read.val_main_v1_apply, Read.val_main_v2_apply]
  show (((IntOp.cmpi .eq (IntOp.addi (BitVec.ofNat 32 r.val) 0#32) (BitVec.ofNat 32 k.val)).toNat : ℝ) : EReal) = _
  by_cases h : r = k
  · rw [if_pos h, IntOp.cmpi_eq.2 ((word_eq_iff r k).2 h)]
    simp
  · rw [if_neg h, eq_zero_of_ne_one (fun e => h ((word_eq_iff r k).1 (IntOp.cmpi_eq.1 e)))]
    simp

/-- One term of row `r` of adj + I against column `j` of the support. -/
theorem row_term (x : FVec Ideal S10000x128 .f32) (adj : FVec Ideal S10000x10000 .f32) (W : FVec Ideal S128x128 .f32)
    (r : Fin 10000) (j : Fin 128) (k : Fin 10000) :
    Read.val_main_v7 (F := Ideal) adj (Read.lidx_main_v8 (ix2 r j) k) * Read.val_main_v0 (F := Ideal) x W (Read.ridx_main_v8 (ix2 r j) k)
      = (adj (ix2 r k) + (if r = k then (1 : EReal) else 0)) * GraphConv.support x W k j := by
  rw [lidx_v8_ix2, ridx_v8_ix2, Read.val_main_v7_apply, eye_entry, support_eq]
  rfl

/-! ## The result -/

/-- For real inputs the reference's result is the layer: the neighbourhood sum through adj + I is the neighbourhood
    sum through adj plus the node's own support, and the zero it clamps against is the real number 0. -/
theorem result_eq (x : FVec Ideal S10000x128 .f32) (adj : FVec Ideal S10000x10000 .f32) (W Ws : FVec Ideal S128x128 .f32)
    (hx : ∀ i, ∃ r : ℝ, x i = (r : EReal)) (hadj : ∀ i, ∃ r : ℝ, adj i = (r : EReal))
    (hW : ∀ i, ∃ r : ℝ, W i = (r : EReal)) (hWs : ∀ i, ∃ r : ℝ, Ws i = (r : EReal)) :
    Read.val_main_v11 (F := Ideal) x adj W Ws = GraphConv.layer x adj W Ws := by
  funext i
  obtain ⟨r, j, rfl⟩ : ∃ (r : Fin 10000) (j : Fin 128), i = ix2 r j := ⟨i 0, i 1, eq_ix2 i⟩
  rw [GraphConv.layer_ix2, Read.val_main_v11_apply, Read.val_main_v10_apply, Read.val_main_v8_apply, selfSupport_eq,
    Read.val_main_call0_v0_apply, Read.val_main_call0_cst_apply,
    Finset.sum_congr rfl fun k _ => row_term x adj W r j k,
    GraphConv.selfLoop_row x adj W hx hadj hW r j]
  simp only [Ideal.maximumf_def, Ideal.addf_def, Ideal.ofBits_def, Ideal.ofBits_zero_f32]
  unfold GraphConv.layerAt
  rw [add_assoc]

end Cert.ReferenceIdeal.RefValue

end
-- ==== Proof.RefRun.lean ====
/-
  The reference's run ends at the layer.

  Every execution of the reference from a memory whose four argument arrays hold real numbers terminates with
  its result array equal to the layer of Spec.lean applied to those arrays, and the arguments unchanged: the
  generated run leaves the result at the composed term of the reference's operations, and that term is the layer
  index by index (RefLayer.lean).
-/
import proofs.«112803_g56341380989462_cont_9to1_m_248_14_alg».proof.Proof.Gen.ReferenceIdeal.Run
import proofs.«112803_g56341380989462_cont_9to1_m_248_14_alg».proof.Proof.Gen.ReferenceIdeal.Read
import proofs.«112803_g56341380989462_cont_9to1_m_248_14_alg».proof.Proof.RefLayer

noncomputable section

namespace Cert.ReferenceIdeal.RefValue

open Cert.ReferenceIdeal Idealize.ShloMosaic Idealize.ShloMosaic.TcCoe Idealize.SL.Sem

theorem run_layer (m' : (ℓ : Loc nD τ sig) → Buf (Elt Ideal) ℓ) (ρ' : Dev nD → PrngReg)
    (hfin : ∀ c : Dev nD,
      (∀ i, ∃ r : ℝ, m' ((c.tc : Thread nD τ).loc main_arg0) i = (r : EReal))
      ∧ (∀ i, ∃ r : ℝ, m' ((c.tc : Thread nD τ).loc main_arg1) i = (r : EReal))
      ∧ (∀ i, ∃ r : ℝ, m' ((c.tc : Thread nD τ).loc main_arg2) i = (r : EReal))
      ∧ (∀ i, ∃ r : ℝ, m' ((c.tc : Thread nD τ).loc main_arg3) i = (r : EReal))) :
    θ_run (defs (F := Ideal)) (onTc (τ := τ) (main (F := Ideal))) ⟨m', fun _ => 0, ρ'⟩ (fun r => ∀ c : Dev nD,
      r.2.mem ((c.tc : Thread nD τ).loc main_v11)
        = GraphConv.layer (m' ((c.tc : Thread nD τ).loc main_arg0)) (m' ((c.tc : Thread nD τ).loc main_arg1))
            (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run (defs (F := Ideal)) _ _).mono
    (fun _ h c => ⟨(h c).1.trans ((Read.val_main_v11_eq (F := Ideal) _ _ _ _).trans
        (result_eq _ _ _ _ (hfin c).1 (hfin c).2.1 (hfin c).2.2.1 (hfin c).2.2.2)), (h c).2⟩)
    (Value.run (F := Ideal) m' ρ')

end Cert.ReferenceIdeal.RefValue

end
-- ==== Proof.FiniteInputs.lean ====
/-
  From the precondition to real numbers.

  The precondition evaluates, for each of the four argument arrays, "every entry has absolute value below +∞"
  (an all-reduction by `and` of the entrywise comparison |v| < +∞), and takes the conjunction of the four.  When the
  result is the word 1, every one of the four reductions is 1, so every entry v of every array satisfies |v| < +∞
  on the extended reals: v is neither +∞ nor −∞, that is, v is a real number.
-/
import proofs.«112803_g56341380989462_cont_9to1_m_248_14_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The bound the precondition compares against is +∞. -/
theorem inf_word : Ideal.ofBits .f32 0x7F800000#32 = (⊤ : EReal) := by simp [Ideal.ofBits, Ideal.ieee]

/-- An extended real whose absolute value is below +∞ is a real number. -/
theorem real_of_abs_lt_inf (v : EReal) (h : Ideal.cmp .olt (max v (-v)) (⊤ : EReal) = 1#1) : ∃ t : ℝ, v = (t : EReal) := by
  induction v using EReal.rec with
  | bot => simp [Ideal.cmp] at h
  | coe t => exact ⟨t, rfl⟩
  | top => simp [Ideal.cmp] at h

/-- One entry: the comparison |x i| < +∞ came out 1, so x i is a real number. -/
theorem entry_real {s : Shape} (x : FVec Ideal s .f32) (dims : Fin S_.rank → Fin s.rank) (hb : S_.BroadcastsInDim s dims) (i : s.Idx)
    (e : cmpf .olt (Host.absf (F := Ideal) x) (broadcastInDim s dims hb (constant (F := Ideal) S_ .f32 0x7F800000#32)) i = 1#1) :
    ∃ t : ℝ, x i = (t : EReal) := by
  refine real_of_abs_lt_inf (x i) ?_
  rw [← inf_word]
  exact e

/-- One array: the all-reduction of the comparisons came out 1, so every entry is a real number. -/
theorem all_real {s : Shape} (x : FVec Ideal s .f32) (dims : Fin S_.rank → Fin s.rank) (hb : S_.BroadcastsInDim s dims)
    {axes : List (Fin s.rank)} (hr : s.ReducesTo axes S_) (hu : 0 < S_.numel) (init : IVec S_ 1)
    (e : Host.reduce IntOp.andi (cmpf .olt (Host.absf (F := Ideal) x) (broadcastInDim s dims hb (constant (F := Ideal) S_ .f32 0x7F800000#32))) init hr hu ix0 = 1#1) :
    ∀ i, ∃ t : ℝ, x i = (t : EReal) :=
  fun i => entry_real x dims hb i (Host.reduce_andi_all _ init hr hu ix0 e i)

/-- A conjunction of two one-bit scalars that is 1 has both conjuncts 1. -/
theorem both_one (a b : IVec S_ 1) (e : andi a b ix0 = 1#1) : a ix0 = 1#1 ∧ b ix0 = 1#1 := IntOp.andi_eq_one.1 e

/-- When the precondition holds of four arrays at the ideal instance, every entry of each is a real number. -/
theorem reals_of_pre [Cert.Pre_finite_inputs.Facts] (x : FVec Ideal S10000x128 .f32) (adj : FVec Ideal S10000x10000 .f32) (W Ws : FVec Ideal S128x128 .f32)
    (h : Cert.Pre_finite_inputs.fn (F := Ideal) x adj W Ws = fun _ => 1#1) :
    (∀ i, ∃ r : ℝ, x i = (r : EReal)) ∧ (∀ i, ∃ r : ℝ, adj i = (r : EReal)) ∧ (∀ i, ∃ r : ℝ, W i = (r : EReal)) ∧ (∀ i, ∃ r : ℝ, Ws i = (r : EReal)) := by
  have h0 := congrFun h ix0
  dsimp only [Cert.Pre_finite_inputs.fn, Cert.Pre_finite_inputs.fn_part1] at h0
  obtain ⟨h012, h3⟩ := both_one _ _ h0
  obtain ⟨h01, h2⟩ := both_one _ _ h012
  obtain ⟨hx, hadj⟩ := both_one _ _ h01
  exact ⟨all_real x _ _ _ _ _ hx, all_real adj _ _ _ _ _ hadj, all_real W _ _ _ _ _ h2, all_real Ws _ _ _ _ _ h3⟩

end Cert.Finite

end
-- ==== Proof.lean ====
/-
  One graph-convolution layer, out = relu((adj + I) · (x · W) + x · Wself), computed by a kernel that never forms adj + I.

  The kernel keeps the support s = x · W and z = s + x · Wself in scratch, written at the grid's first point, and at
  each of its 25 points multiplies two 200-row bands of adj (rows 200 t … and rows 5000 + 200 t …) against s, adds the
  matching rows of z, clamps at zero and writes the two bands as the two planes of a [2, 200, 128] block; the
  [2, 5000, 128] result is then read as [10000, 128].  So its row r is max(Σ_k adj[r,k]·s[k,·] + (s[r,·] + (x·Wself)[r,·]), 0).
  The reference's row r is max(Σ_k (adj[r,k] + δ[r,k])·s[k,·] + (x·Wself)[r,·], 0).  On real entries the identity's row
  picks out s[r,·] and the product distributes over adj[r,k] + δ[r,k], so the two agree; on the extended reals that
  step needs the entries finite, which is what the precondition gives.

  The frames: each kernel program runs through its one region and the reshape after it, its argument arrays only read
  (two windows read adj, each holding half of its share while the region runs); the reference is a straight line of
  host operations.  Nothing was rewritten by the idealization, so the preservation claim is trivial.
-/
import proofs.«112803_g56341380989462_cont_9to1_m_248_14_alg».proof.Defs
import proofs.«112803_g56341380989462_cont_9to1_m_248_14_alg».proof.Proof.Gen.Kernel
import proofs.«112803_g56341380989462_cont_9to1_m_248_14_alg».proof.Proof.Gen.KernelIdeal
import proofs.«112803_g56341380989462_cont_9to1_m_248_14_alg».proof.Proof.Gen.ReferenceIdeal
import proofs.«112803_g56341380989462_cont_9to1_m_248_14_alg».proof.Proof.Gen.Pre_finite_inputs
import proofs.«112803_g56341380989462_cont_9to1_m_248_14_alg».proof.Proof.KernelRun
import proofs.«112803_g56341380989462_cont_9to1_m_248_14_alg».proof.Proof.KernelIdealRun
import proofs.«112803_g56341380989462_cont_9to1_m_248_14_alg».proof.Proof.KernelIdealArray
import proofs.«112803_g56341380989462_cont_9to1_m_248_14_alg».proof.Proof.RefRun
import proofs.«112803_g56341380989462_cont_9to1_m_248_14_alg».proof.Proof.FiniteInputs

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Hand.frame m ρ

/-- So does the idealized kernel. -/
theorem frame_kernelIdeal : Cert.frame_KernelIdeal := fun m ρ _ => Cert.KernelIdeal.Hand.frame m ρ

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- On finite inputs both programs end with the layer's result: the kernel's result array is the layer in the kernel's
    own arrangement, the reference's equals it by the self-loop law on real entries. -/
theorem algebraic : Cert.algebraic_KernelIdeal_ReferenceIdeal := by
  intro m ρ m' ρ' hpre hagree
  have hreal := fun c => Cert.Finite.reals_of_pre _ _ _ _ (hpre c)
  refine ⟨fun c => GraphConv.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, ?_, ?_, ?_, ?_⟩)
      (Cert.KernelIdeal.Hand.run_main (F := Ideal) m ρ)
    · exact (h c).2.1.trans (((Cert.KernelIdeal.Hand.dats m 0 c).arrAt_in 2 rfl _).trans (Cert.KernelIdeal.Hand.A_eq m c 2))
    · exact (h c).2.2.1.trans (((Cert.KernelIdeal.Hand.dats m 0 c).arrAt_in 0 rfl _).trans (Cert.KernelIdeal.Hand.A_eq m c 0))
    · exact (h c).2.2.2.1.trans (((Cert.KernelIdeal.Hand.dats m 0 c).arrAt_in 3 rfl _).trans (Cert.KernelIdeal.Hand.A_eq m c 3))
    · exact (h c).2.2.2.2.trans (((Cert.KernelIdeal.Hand.dats m 0 c).arrAt_in 4 rfl _).trans (Cert.KernelIdeal.Hand.A_eq m c 4))
    · exact Cert.KernelIdeal.HandValue.tail_layer m c (Cert.KernelIdeal.Hand.W₁ m c)
        ((Cert.KernelIdeal.Hand.W₁_out m c).trans (Cert.KernelIdeal.HandValue.final_array m c))
  · have hfin : ∀ c : Dev Cert.ReferenceIdeal.nD,
        (∀ i, ∃ r : ℝ, m' ((c.tc : Thread Cert.ReferenceIdeal.nD Cert.ReferenceIdeal.τ).loc Cert.ReferenceIdeal.main_arg0) i = (r : EReal))
        ∧ (∀ i, ∃ r : ℝ, m' ((c.tc : Thread Cert.ReferenceIdeal.nD Cert.ReferenceIdeal.τ).loc Cert.ReferenceIdeal.main_arg1) i = (r : EReal))
        ∧ (∀ i, ∃ r : ℝ, m' ((c.tc : Thread Cert.ReferenceIdeal.nD Cert.ReferenceIdeal.τ).loc Cert.ReferenceIdeal.main_arg2) i = (r : EReal))
        ∧ (∀ i, ∃ r : ℝ, m' ((c.tc : Thread Cert.ReferenceIdeal.nD Cert.ReferenceIdeal.τ).loc Cert.ReferenceIdeal.main_arg3) i = (r : EReal)) := fun c => by
      obtain ⟨e0, e1, e2, e3⟩ := hagree c
      rw [e0, e1, e2, e3]
      exact hreal c
    refine (θ_run Cert.ReferenceIdeal.defs _ _).mono (fun _ h c => ⟨(h c).1.trans ?_, (h c).2⟩)
      (Cert.ReferenceIdeal.RefValue.run_layer m' ρ' hfin)
    obtain ⟨e0, e1, e2, e3⟩ := hagree c
    rw [e0, e1, e2, e3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
